-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S2048x2 : Shape := ⟨2, ![2048, 2]⟩
abbrev S3x2048 : Shape := ⟨2, ![3, 2048]⟩
abbrev S2048 : Shape := ⟨1, ![2048]⟩
abbrev S_ : Shape := ⟨0, ![]⟩

class Facts : Prop where
  bcast_S_S3x2048 : S_.BroadcastsInDim S3x2048 (![] : Fin 0 → Fin S3x2048.rank)
  reducesTo_S3x2048_S_d0_1 : S3x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : IVec S65536x2 32) (main_arg1 : IVec S2048x2 32) (main_arg2 : FVec F S3x2048 .f32) (main_arg3 : FVec F S2048 .f32) : IVec S_ 1 :=
  let main_v0 : FVec F S3x2048 .f32 := Host.absf main_arg2
  let main_cst : FVec F S_ .f32 := constant S_ .f32 0x7F800000#32
  let main_v1 : FVec F S3x2048 .f32 := broadcastInDim S3x2048 ![] bcast_S_S3x2048 main_cst
  let main_v2 : IVec S3x2048 1 := cmpf .olt main_v0 main_v1
  let main_c : IVec S_ 1 := constantI S_ 1 1#1
  let main_v3 : IVec S_ 1 := (fun x v => Host.reduce IntOp.andi x v reducesTo_S3x2048_S_d0_1 h_S_) main_v2 main_c
  let main_v4 : FVec F S2048 .f32 := Host.absf main_arg3
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_cst_2 : FVec F S_ .f32 := constant S_ .f32 0x00000000#32
  let main_v9 : FVec F S2048 .f32 := broadcastInDim S2048 ![] bcast_S_S2048 main_cst_2
  let main_v10 : IVec S2048 1 := cmpf .une main_arg3 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  main_v12
-- ==== Kernel.lean ====
abbrev S65536x2 : Shape := ⟨2, ![65536, 2]⟩
abbrev S2048x2 : Shape := ⟨2, ![2048, 2]⟩
abbrev S3x2048 : Shape := ⟨2, ![3, 2048]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x3 : Shape := ⟨2, ![2048, 3]⟩
abbrev S2048x124 : Shape := ⟨2, ![2048, 124]⟩
abbrev S2048x128 : Shape := ⟨2, ![2048, 128]⟩
abbrev S65536x3 : Shape := ⟨2, ![65536, 3]⟩
abbrev S1x512 : Shape := ⟨2, ![1, 512]⟩
abbrev S512x128 : Shape := ⟨2, ![512, 128]⟩
abbrev S2048x512 : Shape := ⟨2, ![2048, 512]⟩

abbrev nBuf : Space → Nat
  | .hbm => 39
  | .vmem => 15
  | .smem => 0
  | _ => 0

abbrev bufTy : (tb : Table) → Fin (tcTables nBuf tb) → BufTy
  | .hbm, ⟨0, _⟩ => ⟨S65536x2, .i32⟩
  | .hbm, ⟨1, _⟩ => ⟨S2048x2, .i32⟩
  | .hbm, ⟨2, _⟩ => ⟨S3x2048, .f32⟩
  | .hbm, ⟨3, _⟩ => ⟨S2048, .f32⟩
  | .hbm, ⟨4, _⟩ => ⟨S2048x2, .f32⟩
  | .hbm, ⟨5, _⟩ => ⟨S2048x1, .f32⟩
  | .hbm, ⟨6, _⟩ => ⟨S2048, .f32⟩
  | .hbm, ⟨7, _⟩ => ⟨S1x2048, .f32⟩
  | .hbm, ⟨8, _⟩ => ⟨S2048x1, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S2048x3, .f32⟩
  | .hbm, ⟨32, _⟩ => ⟨S_, .f32⟩
  | .hbm, ⟨33, _⟩ => ⟨S2048x1, .f32⟩
  | .hbm, ⟨34, _⟩ => ⟨S_, .f32⟩
  | .hbm, ⟨35, _⟩ => ⟨S2048x124, .f32⟩
  | .hbm, ⟨36, _⟩ => ⟨S2048x128, .f32⟩
  | .hbm, ⟨37, _⟩ => ⟨S2048x128, .bf16⟩
  | .hbm, ⟨38, _⟩ => ⟨S65536x3, .f32⟩
  | .local _ .vmem, ⟨0, _⟩ => ⟨S2048x2, .i32⟩
  | .local _ .vmem, ⟨1, _⟩ => ⟨S2048x2, .i32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x128, .bf16⟩
  | .local _ .vmem, ⟨11, _⟩ => ⟨S512x128, .bf16⟩
  | .local _ .vmem, ⟨12, _⟩ => ⟨S2048x3, .f32⟩
  | .local _ .vmem, ⟨13, _⟩ => ⟨S2048x3, .f32⟩
  | .local _ .vmem, ⟨14, _⟩ => ⟨S2048x128, .f32⟩
  | _, _ => ⟨S65536x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2048x2_S2048x1_0_0 : S2048x2.Slices ![0, 0] S2048x1
  shapeCasts_S2048x1_S2048 : S2048x1.ShapeCasts S2048
  shapeCasts_S2048_S1x2048 : S2048.ShapeCasts S1x2048
  slices_S2048x2_S2048x1_0_1 : S2048x2.Slices ![0, 1] S2048x1
  bcast_S_S2048 : S_.BroadcastsInDim S2048 (![] : Fin 0 → Fin S2048.rank)
  bcast_S_S1x2048 : S_.BroadcastsInDim S1x2048 (![] : Fin 0 → Fin S1x2048.rank)
  transposes_S3x2048_S2048x3_1_0 : S3x2048.Transposes [1, 0] S2048x3
  bcast_S_S2048x1 : S_.BroadcastsInDim S2048x1 (![] : Fin 0 → Fin S2048x1.rank)
  bcast_S_S2048x124 : S_.BroadcastsInDim S2048x124 (![] : Fin 0 → Fin S2048x124.rank)
  concatenates_S2048x3_S2048x1_S2048x124_S2048x128_d1 : Shape.Concatenates [S2048x3, S2048x1, S2048x124] S2048x128 1
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  slices_S2048x2_o0_1_S2048x1 : S2048x2.Slices ![0, 1] S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S2048x128_o0_0_S2048x3 : S2048x128.Slices ![0, 0] S2048x3
  slices_S2048x128_o0_3_S2048x1 : S2048x128.Slices ![0, 3] S2048x1
  broadcasts_S2048x1_S2048x3 : S2048x1.Broadcasts S2048x3
  inb_S2048x3_S2048x3_0_0 : ∀ a, (![0, 0] : Fin 2 → Nat) a + S2048x3.size a ≤ S2048x3.size a
  h_S2048x3 : 0 < S2048x3.numel
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S65536x2.size a
  hwx0_0 : ∀ i : grid0.Coords, EltTy.bits .i32 = 32 ∨ (Rect.block (s := S65536x2) S2048x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x2048.size a
  hwx0_1 : ∀ i : grid0.Coords, EltTy.bits .f32 = 32 ∨ (Rect.block (s := S1x2048) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S2048x128.size a
  hwx0_5 : ∀ i : grid0.Coords, EltTy.bits .bf16 = 32 ∨ (Rect.block (s := S2048x128) S512x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x3.size a ≤ S65536x3.size a
  hwx0_6 : ∀ i : grid0.Coords, EltTy.bits .f32 = 32 ∨ (Rect.block (s := S65536x3) S2048x3.size (cc0_transform_6 i) (hinb0_6 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2048x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S65536x2 : Shape := ⟨2, ![65536, 2]⟩
abbrev S2048x2 : Shape := ⟨2, ![2048, 2]⟩
abbrev S3x2048 : Shape := ⟨2, ![3, 2048]⟩
abbrev S2048 : Shape := ⟨1, ![2048]⟩
abbrev S_ : Shape := ⟨0, ![]⟩
abbrev S65536 : Shape := ⟨1, ![65536]⟩
abbrev S65536x1 : Shape := ⟨2, ![65536, 1]⟩
abbrev S1x2048 : Shape := ⟨2, ![1, 2048]⟩
abbrev S65536x2048 : Shape := ⟨2, ![65536, 2048]⟩
abbrev S2x2048 : Shape := ⟨2, ![2, 2048]⟩
abbrev S65536x3 : Shape := ⟨2, ![65536, 3]⟩

abbrev nBuf : Space → Nat
  | .hbm => 37
  | .vmem => 0
  | .smem => 0
  | _ => 0

abbrev bufTy : (tb : Table) → Fin (tcTables nBuf tb) → BufTy
  | .hbm, ⟨0, _⟩ => ⟨S65536x2, .i32⟩
  | .hbm, ⟨1, _⟩ => ⟨S2048x2, .i32⟩
  | .hbm, ⟨2, _⟩ => ⟨S3x2048, .f32⟩
  | .hbm, ⟨3, _⟩ => ⟨S2048, .f32⟩
  | .hbm, ⟨4, _⟩ => ⟨S65536x2, .f32⟩
  | .hbm, ⟨5, _⟩ => ⟨S2048x2, .f32⟩
  | .hbm, ⟨6, _⟩ => ⟨S65536x2, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S2048x2, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S65536x2048, .f32⟩
  | .hbm, ⟨15, _⟩ => ⟨S65536x2048, .f32⟩
  | .hbm, ⟨16, _⟩ => ⟨S65536x2048, .f32⟩
  | .hbm, ⟨17, _⟩ => ⟨S_, .f32⟩
  | .hbm, ⟨18, _⟩ => ⟨S65536x2, .f32⟩
  | .hbm, ⟨19, _⟩ => ⟨S65536x2, .f32⟩
  | .hbm, ⟨20, _⟩ => ⟨S2x2048, .f32⟩
  | .hbm, ⟨21, _⟩ => ⟨S65536x2048, .f32⟩
  | .hbm, ⟨22, _⟩ => ⟨S65536x2048, .f32⟩
  | .hbm, ⟨23, _⟩ => ⟨S65536x2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S65536x2048, .f32⟩
  | .hbm, ⟨29, _⟩ => ⟨S65536x2048, .f32⟩
  | .hbm, ⟨30, _⟩ => ⟨S65536x2048, .f32⟩
  | .hbm, ⟨31, _⟩ => ⟨S_, .f32⟩
  | .hbm, ⟨32, _⟩ => ⟨S65536, .f32⟩
  | .hbm, ⟨33, _⟩ => ⟨S65536x3, .f32⟩
  | .hbm, ⟨34, _⟩ => ⟨S65536x1, .f32⟩
  | .hbm, ⟨35, _⟩ => ⟨S65536x3, .f32⟩
  | .hbm, ⟨36, _⟩ => ⟨S65536x3, .f32⟩
  | _, _ => ⟨S65536x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S65536x2_S65536_d1 : S65536x2.ReducesTo [1] S65536
  h_S_ : 0 < S_.numel
  bcast_S65536_S65536x1_0 : S65536.BroadcastsInDim S65536x1 (![0] : Fin 1 → Fin S65536x1.rank)
  reducesTo_S2048x2_S2048_d1 : S2048x2.ReducesTo [1] S2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  bcast_S_S65536x2 : S_.BroadcastsInDim S65536x2 (![] : Fin 0 → Fin S65536x2.rank)
  transposes_S2048x2_S2x2048_1_0 : S2048x2.Transposes [1, 0] S2x2048
  bcast_S_S2048 : S_.BroadcastsInDim S2048 (![] : Fin 0 → Fin S2048.rank)
  reducesTo_S65536x2048_S65536_d1 : S65536x2048.ReducesTo [1] S65536
  bcast_S65536x1_S65536x3_0_1 : S65536x1.BroadcastsInDim S65536x3 (![0, 1] : Fin 2 → Fin S65536x3.rank)
  dot_S65536x2_S2x2048_S65536x2048_1_0_0_1_n_n_wf : DotDims.WF S65536x2 S2x2048 S65536x2048 [1] [0] [0] [1] [] []
  dot_S65536x2048_S3x2048_S65536x3_1_1_0_0_n_n_wf : DotDims.WF S65536x2048 S3x2048 S65536x3 [1] [1] [0] [0] [] []

variable [Facts₀]

def dot_S65536x2_S2x2048_S65536x2048_1_0_0_1_n_n : DotDims S65536x2 S2x2048 S65536x2048 where
  lhsContracting := [1]
  rhsContracting := [0]
  lhsNonContracting := [0]
  rhsNonContracting := [1]
  lhsBatch := []
  rhsBatch := []
  wf := dot_S65536x2_S2x2048_S65536x2048_1_0_0_1_n_n_wf
def dot_S65536x2048_S3x2048_S65536x3_1_1_0_0_n_n : DotDims S65536x2048 S3x2048 S65536x3 where
  lhsContracting := [1]
  rhsContracting := [1]
  lhsNonContracting := [0]
  rhsNonContracting := [0]
  lhsBatch := []
  rhsBatch := []
  wf := dot_S65536x2048_S3x2048_S65536x3_1_1_0_0_n_n_wf

class Facts : Prop extends Facts₀ where

variable [Facts]
-- ==== Proof.RegionEntryB.lean ====
/-
  The region's surroundings. The program is a prologue of host operations (the per-node coefficient rows and the
  padded weight matrix) followed by one grid of 32 × 4 points. This module says what the region finds when it is
  entered — the launch memory after the prologue, in which the four argument arrays are as launched —, what block of
  its array each window shows at a grid point, that an input window's buffer holds that block at every point, which
  of the body's two branches a point takes (the accumulator is cleared where the second grid coordinate is 0, the
  quotient is stored where it is 3), and where the output window is idle.
-/
import proofs.«121839_j68848325754931_2_alg».proof.Proof.Gen.Kernel.Launch
import proofs.«121839_j68848325754931_2_alg».proof.Proof.Gen.Kernel.Skeleton
import proofs.«121839_j68848325754931_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the prologue's host operations. -/
abbrev V (c : Dev nD) (b : Ref sig .tc) : Buf (Elt F) ((c : Thread nD τ).loc b) :=
  StableHlo.after hostOps0 (fun b => m (c, b)) b

/-- The prologue allocates nothing. -/
theorem prologue_fresh : (hostOps0 : List (HloOp τ sig (Elt F))).Forall fun op => op.fresh = ∅ := by
  simp only [List.Forall]; repeat' constructor

/-- @main is the prologue followed by the region. -/
theorem main_upto_region (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prologue_fresh main_chain

/-- No operation of the prologue writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No operation of the prologue writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No operation of the prologue writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No operation of the prologue writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (unfetched, the block
    index has not moved), for any proof data over the region-entry arrays whose body leaves the block in place. -/
theorem input0_holds_block {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current buffer holds its block at every point, fetched there or not (unfetched, the block
    index has not moved), for any proof data over the region-entry arrays whose body leaves the block in place. -/
theorem input1_holds_block {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current buffer holds its block at every point, fetched there or not (unfetched, the block
    index has not moved), for any proof data over the region-entry arrays whose body leaves the block in place. -/
theorem input2_holds_block {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current buffer holds its block at every point, fetched there or not (unfetched, the block
    index has not moved), for any proof data over the region-entry arrays whose body leaves the block in place. -/
theorem input3_holds_block {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current buffer holds its block at every point, fetched there or not (unfetched, the block
    index has not moved), for any proof data over the region-entry arrays whose body leaves the block in place. -/
theorem input4_holds_block {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current buffer holds its block at every point, fetched there or not (unfetched, the block
    index has not moved), for any proof data over the region-entry arrays whose body leaves the block in place. -/
theorem input5_holds_block {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run -/

/-- A run that ends with every array of the pipeline at what the proof data computes, and every other unscoped buffer
    as the region found it, leaves the four argument arrays as launched: the first is an input window's array, the other
    three no window's. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c)⟩) h

/-! ## The body's two branches -/

/-- The first branch (clear the accumulator) is taken where the second grid coordinate is 0, -/
abbrev atFirst (i : grid0.Coords) : Prop := (Scalar.cmpi .ne (Scalar.extui (Scalar.cmpi .eq (BitVec.ofNat 32 (i 1).val) 0#32)) 0#32) = 1#1
/-- that is at the points ≡ 0 (mod 4); -/
theorem atFirst_iff : ∀ t : Fin cfg0.N, atFirst (grid0.coords t) ↔ t.val % 4 = 0 :=
  (by decide +kernel : ∀ t : Fin grid0.N, atFirst (grid0.coords t) ↔ t.val % 4 = 0)

/-- the second (store the quotient) where it is 3, -/
abbrev atLast (i : grid0.Coords) : Prop := k0_cond2 i = 1#1
/-- that is at the points ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Where the quotient is not stored the output window is idle and not written back; where it is stored the window is live. -/
theorem out_idle : ∀ t : Fin cfg0.N, ¬atLast (grid0.coords t) → cfg0.idle 6 (grid0.coords t) = true := by decide +kernel
theorem out_noFlush : ∀ t : Fin cfg0.N, ¬atLast (grid0.coords t) → (cfg0.win 6).flush t = false := by decide +kernel
theorem out_live : ∀ t : Fin cfg0.N, atLast (grid0.coords t) → cfg0.idle 6 (grid0.coords t) = false := by decide +kernel

/-! ## The memrefs the body is called with -/

/-- One staging buffer of the output window, through which its contents are stated. -/
abbrev outView : View sig .tc .vmem S2048x3 .f32 := (Memref.whole cc0_stg6_0 : Memref sig .tc .vmem S2048x3 .f32).view
abbrev ms0 (t : Fin cfg0.N) : Memref sig .tc .vmem S2048x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x3 .f32 := win0_6.stage (cfg0.slots t 6)
abbrev hs6 (t : Fin cfg0.N) : (ms6 t).IsWhole := hstage0_6 ((cfg0.slots t 6).cast nbuf0_6)
/-- The accumulator: a whole scoped buffer of the kernel's own, carried from point to point. -/
abbrev accM : Memref sig .tc .vmem S2048x128 .f32 := Memref.whole cc0_scratch0
abbrev accView : View sig .tc .vmem S2048x128 .f32 := accM.view

/-- The class invariant with the accumulator spelled out: the accumulator at some contents and the generator register
    at some state. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Region

end
-- ==== Proof.BodyFirstB.lean ====
/-
  The kernel body run at a point where the accumulator is cleared and the quotient is not stored (second grid coordinate 0): from the six input buffers at given contents, the accumulator at anything and the output buffer at contents it hands back untouched,
  the body runs to its end, the inputs as they were, and what it stored into the accumulator listed as pieces.
-/
import proofs.«121839_j68848325754931_2_alg».proof.Proof.RegionEntryB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator, with the body's triple on whole memrefs. -/
noncomputable def bodyRunFirst (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) :
    Σ' (L6 : List (View.Piece (Elt F) S2048x3 .f32)), { LS : List (View.Piece (Elt F) S2048x128 .f32) //
      ∀ (xi6 : Vec F S2048x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__fillnet_kernel i arg2 harg2 arg3 harg3 arg4 harg4 arg5 harg5 arg6 harg6 arg7 harg7 arg8 harg8 arg9 harg9) K } := by
  refine ⟨[], ?_, fun xi6 E K => ?run⟩
  case run =>
    simp only [cc0__fillnet_kernel_eq_skeleton]; unfold cc0__fillnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Region

end
-- ==== Proof.BodyMiddleB.lean ====
/-
  The kernel body run at a point where the accumulator is only added to (second grid coordinate 1 or 2): from the six input buffers at given contents, the accumulator at the contents the point before left and the output buffer at contents it hands back untouched,
  the body runs to its end, the inputs as they were, and what it stored into the accumulator listed as pieces.
-/
import proofs.«121839_j68848325754931_2_alg».proof.Proof.BodyFirstB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator, with the body's triple on whole memrefs. -/
noncomputable def bodyRunMiddle (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) :
    Σ' (L6 : List (View.Piece (Elt F) S2048x3 .f32)), { LS : List (View.Piece (Elt F) S2048x128 .f32) //
      ∀ (xi6 : Vec F S2048x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__fillnet_kernel i arg2 harg2 arg3 harg3 arg4 harg4 arg5 harg5 arg6 harg6 arg7 harg7 arg8 harg8 arg9 harg9) K } := by
  refine ⟨[], ?_, fun xi6 E K => ?run⟩
  case run =>
    simp only [cc0__fillnet_kernel_eq_skeleton]; unfold cc0__fillnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Region

end
-- ==== Proof.BodyLastB.lean ====
/-
  The kernel body run at a point where the accumulator is added to and the quotient is stored (second grid coordinate 3): from the six input buffers at given contents, the accumulator at the contents the point before left and the output buffer at anything,
  the body runs to its end, the inputs as they were, and what it stored into the accumulator and the output buffer listed as pieces.
-/
import proofs.«121839_j68848325754931_2_alg».proof.Proof.BodyMiddleB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator, with the body's triple on whole memrefs. -/
noncomputable def bodyRunLast (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) :
    Σ' (L6 : List (View.Piece (Elt F) S2048x3 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__fillnet_kernel i arg2 harg2 arg3 harg3 arg4 harg4 arg5 harg5 arg6 harg6 arg7 harg7 arg8 harg8 arg9 harg9) K } := by
  refine ⟨?_, ?_, fun E K => ?run⟩
  case run =>
    simp only [cc0__fillnet_kernel_eq_skeleton]; unfold cc0__fillnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Region

end
-- ==== Proof.RegionRunB.lean ====
/-
  The region, point by point. The accumulator is a buffer of the kernel's own that the body clears at the first point
  of each row block, adds one chunk's matrix product to at every point, and divides into the output block at the
  row block's last point. `afterPoint` says what the output buffer and the accumulator hold after each grid point,
  by recursion on the point; the region invariant carries the accumulator at that value from one point to the next;
  the body obligation follows by cases on which branches a point takes; and the run of @main and the frame claim
  (it ends, nothing faults, the four argument arrays are unchanged) follow from the pipeline's launch theorem.
-/
import proofs.«121839_j68848325754931_2_alg».proof.Proof.BodyLastB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the accumulator holds after the body in this case: the pieces the body stored, read back. They cover it. -/
theorem accFirst_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) (y : S2048x128.Idx) :
    ∃ pc ∈ (bodyRunFirst c i arg2 harg2 arg3 harg3 arg4 harg4 arg5 harg5 arg6 harg6 arg7 harg7 arg8 harg8 arg9 harg9 hc0 hc1 x0 x1 x2 x3 x4 x5).2.1, y ∈ pc.1.set :=
  View.cover_of_tiledL (bodyRunFirst c i arg2 harg2 arg3 harg3 arg4 harg4 arg5 harg5 arg6 harg6 arg7 harg7 arg8 harg8 arg9 harg9 hc0 hc1 x0 x1 x2 x3 x4 x5).2.1 S2048x128.size (by sl_kernel_rfl) y

def accFirst (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) : Vec F S2048x128 .f32 :=
  accView.read (Elt F) (accView.writes (Elt F) accView.junk (bodyRunFirst c i arg2 harg2 arg3 harg3 arg4 harg4 arg5 harg5 arg6 harg6 arg7 harg7 arg8 harg8 arg9 harg9 hc0 hc1 x0 x1 x2 x3 x4 x5).2.1)

/-- What the output buffer holds after the body in this case (nothing is stored there: a placeholder nothing consults, the window being idle and not written back). -/
def outFirst (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) : Vec F S2048x3 .f32 :=
  outView.read (Elt F) (outView.writes (Elt F) outView.junk (bodyRunFirst c i arg2 harg2 arg3 harg3 arg4 harg4 arg5 harg5 arg6 harg6 arg7 harg7 arg8 harg8 arg9 harg9 hc0 hc1 x0 x1 x2 x3 x4 x5).1)

/-- What the accumulator holds after the body in this case: the pieces the body stored, read back. They cover it. -/
theorem accMiddle_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) (y : S2048x128.Idx) :
    ∃ pc ∈ (bodyRunMiddle c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (bodyRunMiddle c i arg2 harg2 arg3 harg3 arg4 harg4 arg5 harg5 arg6 harg6 arg7 harg7 arg8 harg8 arg9 harg9 hc0 hc1 x0 x1 x2 x3 x4 x5 xs).2.1 S2048x128.size (by sl_kernel_rfl) y

def accMiddle (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) : Vec F S2048x128 .f32 :=
  accView.read (Elt F) (accView.writes (Elt F) accView.junk (bodyRunMiddle c i arg2 harg2 arg3 harg3 arg4 harg4 arg5 harg5 arg6 harg6 arg7 harg7 arg8 harg8 arg9 harg9 hc0 hc1 x0 x1 x2 x3 x4 x5 xs).2.1)

/-- What the output buffer holds after the body in this case (nothing is stored there: a placeholder nothing consults, the window being idle and not written back). -/
def outMiddle (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) : Vec F S2048x3 .f32 :=
  outView.read (Elt F) (outView.writes (Elt F) outView.junk (bodyRunMiddle c i arg2 harg2 arg3 harg3 arg4 harg4 arg5 harg5 arg6 harg6 arg7 harg7 arg8 harg8 arg9 harg9 hc0 hc1 x0 x1 x2 x3 x4 x5 xs).1)

/-- What the accumulator holds after the body in this case: the pieces the body stored, read back. They cover it. -/
theorem accLast_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) (y : S2048x128.Idx) :
    ∃ pc ∈ (bodyRunLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (bodyRunLast c i arg2 harg2 arg3 harg3 arg4 harg4 arg5 harg5 arg6 harg6 arg7 harg7 arg8 harg8 arg9 harg9 hc0 hc1 x0 x1 x2 x3 x4 x5 xs).2.1 S2048x128.size (by sl_kernel_rfl) y

def accLast (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) : Vec F S2048x128 .f32 :=
  accView.read (Elt F) (accView.writes (Elt F) accView.junk (bodyRunLast c i arg2 harg2 arg3 harg3 arg4 harg4 arg5 harg5 arg6 harg6 arg7 harg7 arg8 harg8 arg9 harg9 hc0 hc1 x0 x1 x2 x3 x4 x5 xs).2.1)

/-- The pieces stored into the output buffer cover it. -/
theorem outLast_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) (y : S2048x3.Idx) :
    ∃ pc ∈ (bodyRunLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (bodyRunLast c i arg2 harg2 arg3 harg3 arg4 harg4 arg5 harg5 arg6 harg6 arg7 harg7 arg8 harg8 arg9 harg9 hc0 hc1 x0 x1 x2 x3 x4 x5 xs).1 S2048x3.size (by sl_kernel_rfl) y

/-- What the output buffer holds after the body in this case. -/
def outLast (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) : Vec F S2048x3 .f32 :=
  outView.read (Elt F) (outView.writes (Elt F) outView.junk (bodyRunLast c i arg2 harg2 arg3 harg3 arg4 harg4 arg5 harg5 arg6 harg6 arg7 harg7 arg8 harg8 arg9 harg9 hc0 hc1 x0 x1 x2 x3 x4 x5 xs).1)

/-! ## What the buffers hold after each point -/

/-- The output buffer and the accumulator after the body at point `n`: the case the point is in, run on the point's
    memrefs and input blocks, over what the accumulator held after point `n - 1`. -/
def afterPoint (c : Dev nD) : (n : ℕ) → n < cfg0.N → Vec F S2048x3 .f32 × Vec F S2048x128 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩) (blockAt m c 5 ⟨0, hn⟩), accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩) (blockAt m c 5 ⟨0, hn⟩))
  | n + 1, hn =>
    if h0 : (n + 1) % 4 = 0 then
      if h1 : (n + 1) % 4 = 3 then
        False.elim (by omega)
      else
        (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩), accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩))
    else
      if h1 : (n + 1) % 4 = 3 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2)
      else
        (outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2)

theorem after_first (c : Dev nD) (t : Fin cfg0.N) (h0 : t.val % 4 = 0) (h1 : ¬t.val % 4 = 3) :
    afterPoint m c t.val t.isLt = (outFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((atFirst_iff t).mpr h0) (fun h => h1 ((atLast_iff t).mp h)) (blockAt m c 0 t) (blockAt m c 1 t) (blockAt m c 2 t) (blockAt m c 3 t) (blockAt m c 4 t) (blockAt m c 5 t), accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((atFirst_iff t).mpr h0) (fun h => h1 ((atLast_iff t).mp h)) (blockAt m c 0 t) (blockAt m c 1 t) (blockAt m c 2 t) (blockAt m c 3 t) (blockAt m c 4 t) (blockAt m c 5 t)) := by
  obtain ⟨n, hn⟩ := t
  cases n with
  | zero => exact rfl
  | succ n => exact (dif_pos h0).trans ((dif_neg h1).trans rfl)

theorem after_middle (c : Dev nD) (t : Fin cfg0.N) (h0 : ¬t.val % 4 = 0) (h1 : ¬t.val % 4 = 3) :
    afterPoint m c t.val t.isLt = (outMiddle c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) (fun h => h1 ((atLast_iff t).mp h)) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2, accMiddle c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) (fun h => h1 ((atLast_iff t).mp h)) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem after_last (c : Dev nD) (t : Fin cfg0.N) (h0 : ¬t.val % 4 = 0) (h1 : t.val % 4 = 3) :
    afterPoint m c t.val t.isLt = (outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) ((atLast_iff t).mpr h1) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2, accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) ((atLast_iff t).mpr h1) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulator holds anything; before any other it holds what the point before left. -/
def Inv (c : Dev nD) : (n : ℕ) → n ≤ cfg0.N → sProp 𝕄
  | 0, _ => Pipeline.ΦA spec0 c
  | n + 1, hn => iprop(iprop(owns (c : Thread nD τ) accM fullShare ((afterPoint m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) accM fullShare ((afterPoint m c n hn).2)) ∗ (∃ r, prngReg c r)) := rfl

theorem Inv_pos (c : Dev nD) (n : ℕ) (h : n ≤ cfg0.N) (hz : n ≠ 0) :
    Inv m c n h = iprop(iprop(owns (c : Thread nD τ) accM fullShare ((afterPoint m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `afterPoint`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => (afterPoint m c t.val t.isLt).1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = (afterPoint m c t.val t.isLt).1 := by dsimp only [dats]

theorem before_0 (c : Dev nD) (t : Fin cfg0.N) (d) : (dats m 0 c).before 0 t d = blockAt m c 0 t :=
  input0_holds_block m (dats m 0 c) (A_eq m c 0) (after_0 m c) t d
theorem before_1 (c : Dev nD) (t : Fin cfg0.N) (d) : (dats m 0 c).before 1 t d = blockAt m c 1 t :=
  input1_holds_block m (dats m 0 c) (A_eq m c 1) (after_1 m c) t d
theorem before_2 (c : Dev nD) (t : Fin cfg0.N) (d) : (dats m 0 c).before 2 t d = blockAt m c 2 t :=
  input2_holds_block m (dats m 0 c) (A_eq m c 2) (after_2 m c) t d
theorem before_3 (c : Dev nD) (t : Fin cfg0.N) (d) : (dats m 0 c).before 3 t d = blockAt m c 3 t :=
  input3_holds_block m (dats m 0 c) (A_eq m c 3) (after_3 m c) t d
theorem before_4 (c : Dev nD) (t : Fin cfg0.N) (d) : (dats m 0 c).before 4 t d = blockAt m c 4 t :=
  input4_holds_block m (dats m 0 c) (A_eq m c 4) (after_4 m c) t d
theorem before_5 (c : Dev nD) (t : Fin cfg0.N) (d) : (dats m 0 c).before 5 t d = blockAt m c 5 t :=
  input5_holds_block m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the closed forms say which case the point is in; the
    invariant hands the body the accumulator (at anything at the first point, else at what the point before left) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  have hN : t.val < 128 := lt_of_lt_of_eq t.isLt (show cfg0.N = 128 from N_0)
  by_cases h0 : t.val % 4 = 0
  · by_cases h1 : t.val % 4 = 3
    · exfalso; omega
    · rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [Dat.leavesExact_idle (dats m 0 c) 6 t (out_idle t (fun h => h1 ((atLast_iff t).mp h))) (out_noFlush t (fun h => h1 ((atLast_iff t).mp h)))]
      rw [after_first m c t h0 h1]
      unfold accFirst; (try dsimp only)
      by_cases hz : t.val = 0
      · rw [Inv_castSucc m c t, Inv_zero m c _ _ hz, classInv_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunFirst c (grid0.coords t) _ _ _ _ _ _ _ _ _ _ _ _ _ _ _ _ ((atFirst_iff t).mpr h0) (fun h => h1 ((atLast_iff t).mp h)) (blockAt m c 0 t) (blockAt m c 1 t) (blockAt m c 2 t) (blockAt m c 3 t) (blockAt m c 4 t) (blockAt m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accFirst_cover c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [Inv_castSucc m c t, Inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunFirst c (grid0.coords t) _ _ _ _ _ _ _ _ _ _ _ _ _ _ _ _ ((atFirst_iff t).mpr h0) (fun h => h1 ((atLast_iff t).mp h)) (blockAt m c 0 t) (blockAt m c 1 t) (blockAt m c 2 t) (blockAt m c 3 t) (blockAt m c 4 t) (blockAt m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accFirst_cover c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [show (dats m 0 c).leavesExact 6 t = owns (c : Thread nD τ) (ms6 t) fullShare ((dats m 0 c).after 6 t) from by
        unfold Dat.leavesExact; rw [out_live t ((atLast_iff t).mpr h1)], after_6]
      rw [after_last m c t h0 h1]
      unfold outLast accLast; (try dsimp only)
      by_cases hz : t.val = 0
      · exfalso; omega
      · rw [Inv_castSucc m c t, Inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunLast c (grid0.coords t) _ _ _ _ _ _ _ _ _ _ _ _ _ _ _ _ (fun h => h0 ((atFirst_iff t).mp h)) ((atLast_iff t).mpr h1) (blockAt m c 0 t) (blockAt m c 1 t) (blockAt m c 2 t) (blockAt m c 3 t) (blockAt m c 4 t) (blockAt m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (accLast_cover c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (outLast_cover c _ _ _ _ _ _ _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [Dat.leavesExact_idle (dats m 0 c) 6 t (out_idle t (fun h => h1 ((atLast_iff t).mp h))) (out_noFlush t (fun h => h1 ((atLast_iff t).mp h)))]
      rw [after_middle m c t h0 h1]
      unfold accMiddle; (try dsimp only)
      by_cases hz : t.val = 0
      · exfalso; omega
      · rw [Inv_castSucc m c t, Inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunMiddle c (grid0.coords t) _ _ _ _ _ _ _ _ _ _ _ _ _ _ _ _ (fun h => h0 ((atFirst_iff t).mp h)) (fun h => h1 ((atLast_iff t).mp h)) (blockAt m c 0 t) (blockAt m c 1 t) (blockAt m c 2 t) (blockAt m c 3 t) (blockAt m c 4 t) (blockAt m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accMiddle_cover c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 128 := N_0; omega), classInv_eq]
  iintro ⟨HS, Hg⟩
  isplitl [HS]
  · iexists _; iexact HS
  iexact Hg

/-! ## The run and the frame -/

set_option backward.isDefEq.respectTransparency.types false in
/-- Every weakly fair execution of @main terminates, nothing faulting, with every array of the pipeline at what the
    proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := main_upto_region m Variants.none) (hA := A_eq m) (hin := inv_in m) (hout := inv_out m)

/-- The frame: @main runs to the end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept m ρ (dats m) (A_eq m) (run_main m ρ)

end Cert.Kernel.Region

end
-- ==== Proof.RegionEntryI.lean ====
/-
  The region's surroundings. The program is a prologue of host operations (the per-node coefficient rows and the
  padded weight matrix) followed by one grid of 32 × 4 points. This module says what the region finds when it is
  entered — the launch memory after the prologue, in which the four argument arrays are as launched —, what block of
  its array each window shows at a grid point, that an input window's buffer holds that block at every point, which
  of the body's two branches a point takes (the accumulator is cleared where the second grid coordinate is 0, the
  quotient is stored where it is 3), and where the output window is idle.
-/
import proofs.«121839_j68848325754931_2_alg».proof.Proof.Gen.KernelIdeal.Launch
import proofs.«121839_j68848325754931_2_alg».proof.Proof.Gen.KernelIdeal.Skeleton
import proofs.«121839_j68848325754931_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the prologue's host operations. -/
abbrev V (c : Dev nD) (b : Ref sig .tc) : Buf (Elt F) ((c : Thread nD τ).loc b) :=
  StableHlo.after hostOps0 (fun b => m (c, b)) b

/-- The prologue allocates nothing. -/
theorem prologue_fresh : (hostOps0 : List (HloOp τ sig (Elt F))).Forall fun op => op.fresh = ∅ := by
  simp only [List.Forall]; repeat' constructor

/-- @main is the prologue followed by the region. -/
theorem main_upto_region (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prologue_fresh main_chain

/-- No operation of the prologue writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No operation of the prologue writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No operation of the prologue writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No operation of the prologue writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (unfetched, the block
    index has not moved), for any proof data over the region-entry arrays whose body leaves the block in place. -/
theorem input0_holds_block {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current buffer holds its block at every point, fetched there or not (unfetched, the block
    index has not moved), for any proof data over the region-entry arrays whose body leaves the block in place. -/
theorem input1_holds_block {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current buffer holds its block at every point, fetched there or not (unfetched, the block
    index has not moved), for any proof data over the region-entry arrays whose body leaves the block in place. -/
theorem input2_holds_block {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current buffer holds its block at every point, fetched there or not (unfetched, the block
    index has not moved), for any proof data over the region-entry arrays whose body leaves the block in place. -/
theorem input3_holds_block {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current buffer holds its block at every point, fetched there or not (unfetched, the block
    index has not moved), for any proof data over the region-entry arrays whose body leaves the block in place. -/
theorem input4_holds_block {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current buffer holds its block at every point, fetched there or not (unfetched, the block
    index has not moved), for any proof data over the region-entry arrays whose body leaves the block in place. -/
theorem input5_holds_block {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run -/

/-- A run that ends with every array of the pipeline at what the proof data computes, and every other unscoped buffer
    as the region found it, leaves the four argument arrays as launched: the first is an input window's array, the other
    three no window's. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c)⟩) h

/-! ## The body's two branches -/

/-- The first branch (clear the accumulator) is taken where the second grid coordinate is 0, -/
abbrev atFirst (i : grid0.Coords) : Prop := (Scalar.cmpi .ne (Scalar.extui (Scalar.cmpi .eq (BitVec.ofNat 32 (i 1).val) 0#32)) 0#32) = 1#1
/-- that is at the points ≡ 0 (mod 4); -/
theorem atFirst_iff : ∀ t : Fin cfg0.N, atFirst (grid0.coords t) ↔ t.val % 4 = 0 :=
  (by decide +kernel : ∀ t : Fin grid0.N, atFirst (grid0.coords t) ↔ t.val % 4 = 0)

/-- the second (store the quotient) where it is 3, -/
abbrev atLast (i : grid0.Coords) : Prop := k0_cond2 i = 1#1
/-- that is at the points ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Where the quotient is not stored the output window is idle and not written back; where it is stored the window is live. -/
theorem out_idle : ∀ t : Fin cfg0.N, ¬atLast (grid0.coords t) → cfg0.idle 6 (grid0.coords t) = true := by decide +kernel
theorem out_noFlush : ∀ t : Fin cfg0.N, ¬atLast (grid0.coords t) → (cfg0.win 6).flush t = false := by decide +kernel
theorem out_live : ∀ t : Fin cfg0.N, atLast (grid0.coords t) → cfg0.idle 6 (grid0.coords t) = false := by decide +kernel

/-! ## The memrefs the body is called with -/

/-- One staging buffer of the output window, through which its contents are stated. -/
abbrev outView : View sig .tc .vmem S2048x3 .f32 := (Memref.whole cc0_stg6_0 : Memref sig .tc .vmem S2048x3 .f32).view
abbrev ms0 (t : Fin cfg0.N) : Memref sig .tc .vmem S2048x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x3 .f32 := win0_6.stage (cfg0.slots t 6)
abbrev hs6 (t : Fin cfg0.N) : (ms6 t).IsWhole := hstage0_6 ((cfg0.slots t 6).cast nbuf0_6)
/-- The accumulator: a whole scoped buffer of the kernel's own, carried from point to point. -/
abbrev accM : Memref sig .tc .vmem S2048x128 .f32 := Memref.whole cc0_scratch0
abbrev accView : View sig .tc .vmem S2048x128 .f32 := accM.view

/-- The class invariant with the accumulator spelled out: the accumulator at some contents and the generator register
    at some state. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Region

end
-- ==== Proof.BodyFirstI.lean ====
/-
  The kernel body run at a point where the accumulator is cleared and the quotient is not stored (second grid coordinate 0): from the six input buffers at given contents, the accumulator at anything and the output buffer at contents it hands back untouched,
  the body runs to its end, the inputs as they were, and what it stored into the accumulator listed as pieces.
-/
import proofs.«121839_j68848325754931_2_alg».proof.Proof.RegionEntryI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator, with the body's triple on whole memrefs. -/
noncomputable def bodyRunFirst (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) :
    Σ' (L6 : List (View.Piece (Elt F) S2048x3 .f32)), { LS : List (View.Piece (Elt F) S2048x128 .f32) //
      ∀ (xi6 : Vec F S2048x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__fillnet_kernel i arg2 harg2 arg3 harg3 arg4 harg4 arg5 harg5 arg6 harg6 arg7 harg7 arg8 harg8 arg9 harg9) K } := by
  refine ⟨[], ?_, fun xi6 E K => ?run⟩
  case run =>
    simp only [cc0__fillnet_kernel_eq_skeleton]; unfold cc0__fillnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Region

end
-- ==== Proof.BodyMiddleI.lean ====
/-
  The kernel body run at a point where the accumulator is only added to (second grid coordinate 1 or 2): from the six input buffers at given contents, the accumulator at the contents the point before left and the output buffer at contents it hands back untouched,
  the body runs to its end, the inputs as they were, and what it stored into the accumulator listed as pieces.
-/
import proofs.«121839_j68848325754931_2_alg».proof.Proof.BodyFirstI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator, with the body's triple on whole memrefs. -/
noncomputable def bodyRunMiddle (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) :
    Σ' (L6 : List (View.Piece (Elt F) S2048x3 .f32)), { LS : List (View.Piece (Elt F) S2048x128 .f32) //
      ∀ (xi6 : Vec F S2048x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__fillnet_kernel i arg2 harg2 arg3 harg3 arg4 harg4 arg5 harg5 arg6 harg6 arg7 harg7 arg8 harg8 arg9 harg9) K } := by
  refine ⟨[], ?_, fun xi6 E K => ?run⟩
  case run =>
    simp only [cc0__fillnet_kernel_eq_skeleton]; unfold cc0__fillnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Region

end
-- ==== Proof.BodyLastI.lean ====
/-
  The kernel body run at a point where the accumulator is added to and the quotient is stored (second grid coordinate 3): from the six input buffers at given contents, the accumulator at the contents the point before left and the output buffer at anything,
  the body runs to its end, the inputs as they were, and what it stored into the accumulator and the output buffer listed as pieces.
-/
import proofs.«121839_j68848325754931_2_alg».proof.Proof.BodyMiddleI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator, with the body's triple on whole memrefs. -/
noncomputable def bodyRunLast (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) :
    Σ' (L6 : List (View.Piece (Elt F) S2048x3 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__fillnet_kernel i arg2 harg2 arg3 harg3 arg4 harg4 arg5 harg5 arg6 harg6 arg7 harg7 arg8 harg8 arg9 harg9) K } := by
  refine ⟨?_, ?_, fun E K => ?run⟩
  case run =>
    simp only [cc0__fillnet_kernel_eq_skeleton]; unfold cc0__fillnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Region

end
-- ==== Proof.RegionRunI.lean ====
/-
  The region, point by point. The accumulator is a buffer of the kernel's own that the body clears at the first point
  of each row block, adds one chunk's matrix product to at every point, and divides into the output block at the
  row block's last point. `afterPoint` says what the output buffer and the accumulator hold after each grid point,
  by recursion on the point; the region invariant carries the accumulator at that value from one point to the next;
  the body obligation follows by cases on which branches a point takes; and the run of @main and the frame claim
  (it ends, nothing faults, the four argument arrays are unchanged) follow from the pipeline's launch theorem.
-/
import proofs.«121839_j68848325754931_2_alg».proof.Proof.BodyLastI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the accumulator holds after the body in this case: the pieces the body stored, read back. They cover it. -/
theorem accFirst_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) (y : S2048x128.Idx) :
    ∃ pc ∈ (bodyRunFirst c i arg2 harg2 arg3 harg3 arg4 harg4 arg5 harg5 arg6 harg6 arg7 harg7 arg8 harg8 arg9 harg9 hc0 hc1 x0 x1 x2 x3 x4 x5).2.1, y ∈ pc.1.set :=
  View.cover_of_tiledL (bodyRunFirst c i arg2 harg2 arg3 harg3 arg4 harg4 arg5 harg5 arg6 harg6 arg7 harg7 arg8 harg8 arg9 harg9 hc0 hc1 x0 x1 x2 x3 x4 x5).2.1 S2048x128.size (by sl_kernel_rfl) y

def accFirst (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) : Vec F S2048x128 .f32 :=
  accView.read (Elt F) (accView.writes (Elt F) accView.junk (bodyRunFirst c i arg2 harg2 arg3 harg3 arg4 harg4 arg5 harg5 arg6 harg6 arg7 harg7 arg8 harg8 arg9 harg9 hc0 hc1 x0 x1 x2 x3 x4 x5).2.1)

/-- What the output buffer holds after the body in this case (nothing is stored there: a placeholder nothing consults, the window being idle and not written back). -/
def outFirst (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) : Vec F S2048x3 .f32 :=
  outView.read (Elt F) (outView.writes (Elt F) outView.junk (bodyRunFirst c i arg2 harg2 arg3 harg3 arg4 harg4 arg5 harg5 arg6 harg6 arg7 harg7 arg8 harg8 arg9 harg9 hc0 hc1 x0 x1 x2 x3 x4 x5).1)

/-- What the accumulator holds after the body in this case: the pieces the body stored, read back. They cover it. -/
theorem accMiddle_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) (y : S2048x128.Idx) :
    ∃ pc ∈ (bodyRunMiddle c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (bodyRunMiddle c i arg2 harg2 arg3 harg3 arg4 harg4 arg5 harg5 arg6 harg6 arg7 harg7 arg8 harg8 arg9 harg9 hc0 hc1 x0 x1 x2 x3 x4 x5 xs).2.1 S2048x128.size (by sl_kernel_rfl) y

def accMiddle (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) : Vec F S2048x128 .f32 :=
  accView.read (Elt F) (accView.writes (Elt F) accView.junk (bodyRunMiddle c i arg2 harg2 arg3 harg3 arg4 harg4 arg5 harg5 arg6 harg6 arg7 harg7 arg8 harg8 arg9 harg9 hc0 hc1 x0 x1 x2 x3 x4 x5 xs).2.1)

/-- What the output buffer holds after the body in this case (nothing is stored there: a placeholder nothing consults, the window being idle and not written back). -/
def outMiddle (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) : Vec F S2048x3 .f32 :=
  outView.read (Elt F) (outView.writes (Elt F) outView.junk (bodyRunMiddle c i arg2 harg2 arg3 harg3 arg4 harg4 arg5 harg5 arg6 harg6 arg7 harg7 arg8 harg8 arg9 harg9 hc0 hc1 x0 x1 x2 x3 x4 x5 xs).1)

/-- What the accumulator holds after the body in this case: the pieces the body stored, read back. They cover it. -/
theorem accLast_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) (y : S2048x128.Idx) :
    ∃ pc ∈ (bodyRunLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (bodyRunLast c i arg2 harg2 arg3 harg3 arg4 harg4 arg5 harg5 arg6 harg6 arg7 harg7 arg8 harg8 arg9 harg9 hc0 hc1 x0 x1 x2 x3 x4 x5 xs).2.1 S2048x128.size (by sl_kernel_rfl) y

def accLast (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) : Vec F S2048x128 .f32 :=
  accView.read (Elt F) (accView.writes (Elt F) accView.junk (bodyRunLast c i arg2 harg2 arg3 harg3 arg4 harg4 arg5 harg5 arg6 harg6 arg7 harg7 arg8 harg8 arg9 harg9 hc0 hc1 x0 x1 x2 x3 x4 x5 xs).2.1)

/-- The pieces stored into the output buffer cover it. -/
theorem outLast_cover (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) (y : S2048x3.Idx) :
    ∃ pc ∈ (bodyRunLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (bodyRunLast c i arg2 harg2 arg3 harg3 arg4 harg4 arg5 harg5 arg6 harg6 arg7 harg7 arg8 harg8 arg9 harg9 hc0 hc1 x0 x1 x2 x3 x4 x5 xs).1 S2048x3.size (by sl_kernel_rfl) y

/-- What the output buffer holds after the body in this case. -/
def outLast (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) : Vec F S2048x3 .f32 :=
  outView.read (Elt F) (outView.writes (Elt F) outView.junk (bodyRunLast c i arg2 harg2 arg3 harg3 arg4 harg4 arg5 harg5 arg6 harg6 arg7 harg7 arg8 harg8 arg9 harg9 hc0 hc1 x0 x1 x2 x3 x4 x5 xs).1)

/-! ## What the buffers hold after each point -/

/-- The output buffer and the accumulator after the body at point `n`: the case the point is in, run on the point's
    memrefs and input blocks, over what the accumulator held after point `n - 1`. -/
def afterPoint (c : Dev nD) : (n : ℕ) → n < cfg0.N → Vec F S2048x3 .f32 × Vec F S2048x128 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩) (blockAt m c 5 ⟨0, hn⟩), accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩) (blockAt m c 5 ⟨0, hn⟩))
  | n + 1, hn =>
    if h0 : (n + 1) % 4 = 0 then
      if h1 : (n + 1) % 4 = 3 then
        False.elim (by omega)
      else
        (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩), accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩))
    else
      if h1 : (n + 1) % 4 = 3 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2)
      else
        (outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (afterPoint c n (Nat.lt_of_succ_lt hn)).2)

theorem after_first (c : Dev nD) (t : Fin cfg0.N) (h0 : t.val % 4 = 0) (h1 : ¬t.val % 4 = 3) :
    afterPoint m c t.val t.isLt = (outFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((atFirst_iff t).mpr h0) (fun h => h1 ((atLast_iff t).mp h)) (blockAt m c 0 t) (blockAt m c 1 t) (blockAt m c 2 t) (blockAt m c 3 t) (blockAt m c 4 t) (blockAt m c 5 t), accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((atFirst_iff t).mpr h0) (fun h => h1 ((atLast_iff t).mp h)) (blockAt m c 0 t) (blockAt m c 1 t) (blockAt m c 2 t) (blockAt m c 3 t) (blockAt m c 4 t) (blockAt m c 5 t)) := by
  obtain ⟨n, hn⟩ := t
  cases n with
  | zero => exact rfl
  | succ n => exact (dif_pos h0).trans ((dif_neg h1).trans rfl)

theorem after_middle (c : Dev nD) (t : Fin cfg0.N) (h0 : ¬t.val % 4 = 0) (h1 : ¬t.val % 4 = 3) :
    afterPoint m c t.val t.isLt = (outMiddle c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) (fun h => h1 ((atLast_iff t).mp h)) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2, accMiddle c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) (fun h => h1 ((atLast_iff t).mp h)) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem after_last (c : Dev nD) (t : Fin cfg0.N) (h0 : ¬t.val % 4 = 0) (h1 : t.val % 4 = 3) :
    afterPoint m c t.val t.isLt = (outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) ((atLast_iff t).mpr h1) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2, accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((atFirst_iff t).mp h)) ((atLast_iff t).mpr h1) (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulator holds anything; before any other it holds what the point before left. -/
def Inv (c : Dev nD) : (n : ℕ) → n ≤ cfg0.N → sProp 𝕄
  | 0, _ => Pipeline.ΦA spec0 c
  | n + 1, hn => iprop(iprop(owns (c : Thread nD τ) accM fullShare ((afterPoint m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) accM fullShare ((afterPoint m c n hn).2)) ∗ (∃ r, prngReg c r)) := rfl

theorem Inv_pos (c : Dev nD) (n : ℕ) (h : n ≤ cfg0.N) (hz : n ≠ 0) :
    Inv m c n h = iprop(iprop(owns (c : Thread nD τ) accM fullShare ((afterPoint m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `afterPoint`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => (afterPoint m c t.val t.isLt).1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = (afterPoint m c t.val t.isLt).1 := by dsimp only [dats]

theorem before_0 (c : Dev nD) (t : Fin cfg0.N) (d) : (dats m 0 c).before 0 t d = blockAt m c 0 t :=
  input0_holds_block m (dats m 0 c) (A_eq m c 0) (after_0 m c) t d
theorem before_1 (c : Dev nD) (t : Fin cfg0.N) (d) : (dats m 0 c).before 1 t d = blockAt m c 1 t :=
  input1_holds_block m (dats m 0 c) (A_eq m c 1) (after_1 m c) t d
theorem before_2 (c : Dev nD) (t : Fin cfg0.N) (d) : (dats m 0 c).before 2 t d = blockAt m c 2 t :=
  input2_holds_block m (dats m 0 c) (A_eq m c 2) (after_2 m c) t d
theorem before_3 (c : Dev nD) (t : Fin cfg0.N) (d) : (dats m 0 c).before 3 t d = blockAt m c 3 t :=
  input3_holds_block m (dats m 0 c) (A_eq m c 3) (after_3 m c) t d
theorem before_4 (c : Dev nD) (t : Fin cfg0.N) (d) : (dats m 0 c).before 4 t d = blockAt m c 4 t :=
  input4_holds_block m (dats m 0 c) (A_eq m c 4) (after_4 m c) t d
theorem before_5 (c : Dev nD) (t : Fin cfg0.N) (d) : (dats m 0 c).before 5 t d = blockAt m c 5 t :=
  input5_holds_block m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the closed forms say which case the point is in; the
    invariant hands the body the accumulator (at anything at the first point, else at what the point before left) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  have hN : t.val < 128 := lt_of_lt_of_eq t.isLt (show cfg0.N = 128 from N_0)
  by_cases h0 : t.val % 4 = 0
  · by_cases h1 : t.val % 4 = 3
    · exfalso; omega
    · rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [Dat.leavesExact_idle (dats m 0 c) 6 t (out_idle t (fun h => h1 ((atLast_iff t).mp h))) (out_noFlush t (fun h => h1 ((atLast_iff t).mp h)))]
      rw [after_first m c t h0 h1]
      unfold accFirst; (try dsimp only)
      by_cases hz : t.val = 0
      · rw [Inv_castSucc m c t, Inv_zero m c _ _ hz, classInv_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunFirst c (grid0.coords t) _ _ _ _ _ _ _ _ _ _ _ _ _ _ _ _ ((atFirst_iff t).mpr h0) (fun h => h1 ((atLast_iff t).mp h)) (blockAt m c 0 t) (blockAt m c 1 t) (blockAt m c 2 t) (blockAt m c 3 t) (blockAt m c 4 t) (blockAt m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accFirst_cover c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [Inv_castSucc m c t, Inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunFirst c (grid0.coords t) _ _ _ _ _ _ _ _ _ _ _ _ _ _ _ _ ((atFirst_iff t).mpr h0) (fun h => h1 ((atLast_iff t).mp h)) (blockAt m c 0 t) (blockAt m c 1 t) (blockAt m c 2 t) (blockAt m c 3 t) (blockAt m c 4 t) (blockAt m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accFirst_cover c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [show (dats m 0 c).leavesExact 6 t = owns (c : Thread nD τ) (ms6 t) fullShare ((dats m 0 c).after 6 t) from by
        unfold Dat.leavesExact; rw [out_live t ((atLast_iff t).mpr h1)], after_6]
      rw [after_last m c t h0 h1]
      unfold outLast accLast; (try dsimp only)
      by_cases hz : t.val = 0
      · exfalso; omega
      · rw [Inv_castSucc m c t, Inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunLast c (grid0.coords t) _ _ _ _ _ _ _ _ _ _ _ _ _ _ _ _ (fun h => h0 ((atFirst_iff t).mp h)) ((atLast_iff t).mpr h1) (blockAt m c 0 t) (blockAt m c 1 t) (blockAt m c 2 t) (blockAt m c 3 t) (blockAt m c 4 t) (blockAt m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS Hg]
        · isplitl [HS]
          · unfold owns; iexists _; isplitr
            swap; · iexact HS
            ipureintro; exact View.read_writes_of_cover _ _ _ _ _ (accLast_cover c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (outLast_cover c _ _ _ _ _ _ _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [Dat.leavesExact_idle (dats m 0 c) 6 t (out_idle t (fun h => h1 ((atLast_iff t).mp h))) (out_noFlush t (fun h => h1 ((atLast_iff t).mp h)))]
      rw [after_middle m c t h0 h1]
      unfold accMiddle; (try dsimp only)
      by_cases hz : t.val = 0
      · exfalso; omega
      · rw [Inv_castSucc m c t, Inv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((bodyRunMiddle c (grid0.coords t) _ _ _ _ _ _ _ _ _ _ _ _ _ _ _ _ (fun h => h0 ((atFirst_iff t).mp h)) (fun h => h1 ((atLast_iff t).mp h)) (blockAt m c 0 t) (blockAt m c 1 t) (blockAt m c 2 t) (blockAt m c 3 t) (blockAt m c 4 t) (blockAt m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS Hg]
        · isplitl [HS]
          · unfold owns; iexists _; isplitr
            swap; · iexact HS
            ipureintro; exact View.read_writes_of_cover _ _ _ _ _ (accMiddle_cover c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 128 := N_0; omega), classInv_eq]
  iintro ⟨HS, Hg⟩
  isplitl [HS]
  · iexists _; iexact HS
  iexact Hg

/-! ## The run and the frame -/

set_option backward.isDefEq.respectTransparency.types false in
/-- Every weakly fair execution of @main terminates, nothing faulting, with every array of the pipeline at what the
    proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := main_upto_region m Variants.none) (hA := A_eq m) (hin := inv_in m) (hout := inv_out m)

/-- The frame: @main runs to the end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept m ρ (dats m) (A_eq m) (run_main m ρ)

end Cert.KernelIdeal.Region

end
-- ==== Proof.BodyLeaves.lean ====
/-
  What the body leaves, as values. The covering stores of each case are read back: at a point that clears the
  accumulator it ends at the chunk's step applied to the zero block, at any other point at the step applied to what
  the point before left, and where the quotient is stored the output block is the quotient of that accumulator's
  first three columns by its fourth.
-/
import proofs.«121839_j68848325754931_2_alg».proof.Proof.RegionRunI
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz : (![0, 0] : Fin 2 → Nat) = fun _ => 0 := funext fun a => by fin_cases a <;> rfl

/-- A point that only adds: the accumulator ends at the step applied to what it held. -/
theorem accMiddle_eq (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : ¬atLast i)
    (x0 : Vec F S2048x2 .i32) (x1 x2 x3 x4 : Vec F S1x512 .f32) (x5 : Vec F S512x128 .bf16) (xs : Vec F S2048x128 .f32) :
    accMiddle c i arg2 harg2 arg3 harg3 arg4 harg4 arg5 harg5 arg6 harg6 arg7 harg7 arg8 harg8 arg9 harg9 hc0 hc1 x0 x1 x2 x3 x4 x5 xs = k0_pay1 (k0_pay4 x0 x1 x2 x3 x4 x5 xs) := by
  unfold accMiddle
  rw [View.read_writes_eq_canon _ _ _ (accMiddle_cover c i arg2 harg2 arg3 harg3 arg4 harg4 arg5 harg5 arg6 harg6 arg7 harg7 arg8 harg8 arg9 harg9 hc0 hc1 x0 x1 x2 x3 x4 x5 xs)]
  unfold bodyRunMiddle
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S2048x2) hz, View.ld_unit_zero (S := S1x512) hz, View.ld_unit_zero (S := S512x128) hz, View.ld_unit_zero (S := S2048x128) hz, View.ld_unit_zero (S := S2048x3) hz]

/-- A row block's last point: the same step, -/
theorem accLast_eq (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) :
    accLast c i arg2 harg2 arg3 harg3 arg4 harg4 arg5 harg5 arg6 harg6 arg7 harg7 arg8 harg8 arg9 harg9 hc0 hc1 x0 x1 x2 x3 x4 x5 xs = k0_pay1 (k0_pay4 x0 x1 x2 x3 x4 x5 xs) := by
  unfold accLast
  rw [View.read_writes_eq_canon _ _ _ (accLast_cover c i arg2 harg2 arg3 harg3 arg4 harg4 arg5 harg5 arg6 harg6 arg7 harg7 arg8 harg8 arg9 harg9 hc0 hc1 x0 x1 x2 x3 x4 x5 xs)]
  unfold bodyRunLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S2048x2) hz, View.ld_unit_zero (S := S1x512) hz, View.ld_unit_zero (S := S512x128) hz, View.ld_unit_zero (S := S2048x128) hz, View.ld_unit_zero (S := S2048x3) hz]

/-- and the output block is the quotient taken of the accumulator just stored. -/
theorem outLast_eq (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : ¬atFirst i) (hc1 : atLast i)
    (x0 : Vec F S2048x2 .i32) (x1 x2 x3 x4 : Vec F S1x512 .f32) (x5 : Vec F S512x128 .bf16) (xs : Vec F S2048x128 .f32) :
    outLast c i arg2 harg2 arg3 harg3 arg4 harg4 arg5 harg5 arg6 harg6 arg7 harg7 arg8 harg8 arg9 harg9 hc0 hc1 x0 x1 x2 x3 x4 x5 xs = k0_pay2 (k0_pay1 (k0_pay4 x0 x1 x2 x3 x4 x5 xs)) := by
  unfold outLast
  rw [View.read_writes_eq_canon _ _ _ (outLast_cover c i arg2 harg2 arg3 harg3 arg4 harg4 arg5 harg5 arg6 harg6 arg7 harg7 arg8 harg8 arg9 harg9 hc0 hc1 x0 x1 x2 x3 x4 x5 xs)]
  unfold bodyRunLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S2048x2) hz, View.ld_unit_zero (S := S1x512) hz, View.ld_unit_zero (S := S512x128) hz, View.ld_unit_zero (S := S2048x128) hz, View.ld_unit_zero (S := S2048x3) hz]
  rw [View.readCov_unit_zero (S := S2048x128) _ hz]

/-- A row block's first point: the step applied to the zero block the body has just stored. -/
theorem accFirst_eq (c : Dev nD) (i : grid0.Coords) (arg2 : Memref sig .tc .vmem S2048x2 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .bf16) (harg7 : arg7.IsWhole) (arg8 : Memref sig .tc .vmem S2048x3 .f32) (harg8 : arg8.IsWhole) (arg9 : Memref sig .tc .vmem S2048x128 .f32) (harg9 : arg9.IsWhole) (hc0 : atFirst i) (hc1 : ¬atLast i)
    (x0 : Vec F S2048x2 .i32) (x1 x2 x3 x4 : Vec F S1x512 .f32) (x5 : Vec F S512x128 .bf16) :
    accFirst c i arg2 harg2 arg3 harg3 arg4 harg4 arg5 harg5 arg6 harg6 arg7 harg7 arg8 harg8 arg9 harg9 hc0 hc1 x0 x1 x2 x3 x4 x5 = k0_pay1 (k0_pay4 x0 x1 x2 x3 x4 x5 (k0_pay3 (F := F))) := by
  unfold accFirst
  rw [View.read_writes_eq_canon _ _ _ (accFirst_cover c i arg2 harg2 arg3 harg3 arg4 harg4 arg5 harg5 arg6 harg6 arg7 harg7 arg8 harg8 arg9 harg9 hc0 hc1 x0 x1 x2 x3 x4 x5)]
  unfold bodyRunFirst
  dsimp only
  sl_unfold_words
  rw [View.canon_cons_unit_zero (S := S2048x128) hz, View.readCov_unit_zero (S := S2048x128) _ hz]
  simp only [View.readAt_eq_ld, harg2.read_unread, harg3.read_unread, harg4.read_unread, harg5.read_unread, harg6.read_unread, harg7.read_unread, harg8.read_unread, harg9.read_unread, View.ld_unit_zero (S := S2048x2) hz, View.ld_unit_zero (S := S1x512) hz, View.ld_unit_zero (S := S512x128) hz, View.ld_unit_zero (S := S2048x128) hz, View.ld_unit_zero (S := S2048x3) hz]

end Cert.KernelIdeal.Region

end
-- ==== Proof.Spec.lean ====
/-
  The function both programs compute, stated once over the extended reals.

  A query point n has integer coordinates (x0, x1); a pattern node p has integer coordinates (p0, p1), a
  bandwidth σ²(p) and, per output channel c, a weight W(c, p). With s(p) = 1 / (2 σ²(p)) the Gaussian weight of
  node p at point n is

      rbf(n, p) = exp( x0 · (2 p0 s) + x1 · (2 p1 s) + (−(p0² + p1²)) s − (x0² + x1²) s ),

  which is exp(−((x0 − p0)² + (x1 − p1)²) / (2 σ²)) whenever σ² is a nonzero real. The result is the weighted mean

      G(n, c) = (Σ_p rbf(n, p) · W(c, p)) / (Σ_p rbf(n, p)).
-/
import Idealize.ShloMosaic.PureOps.Ideal
import Idealize.ShloMosaic.Lib.ValueIdx

noncomputable section

namespace Cert.Rbf

open Idealize.ShloMosaic Idealize.ShloMosaic.ValueIdx

/-- The float literals 2 and 1, kept as their words. -/
abbrev two : EReal := Ideal.ofBits .f32 0x40000000#32
abbrev one : EReal := Ideal.ofBits .f32 0x3F800000#32

/-- Coordinate k of row r of an integer table, as a real. -/
def coord {N : Nat} (A : (⟨2, ![N, 2]⟩ : Shape).Idx → BitVec 32) (r : Fin N) (k : Fin 2) : EReal :=
  (((A (ix2 r k)).toInt : ℝ) : EReal)

variable (X : (⟨2, ![65536, 2]⟩ : Shape).Idx → BitVec 32) (Pl : (⟨2, ![2048, 2]⟩ : Shape).Idx → BitVec 32)
  (W : (⟨2, ![3, 2048]⟩ : Shape).Idx → EReal) (σ : (⟨1, ![2048]⟩ : Shape).Idx → EReal)

/-- s(p) = 1 / (2 σ²(p)). -/
def invTwoSigma (p : Fin 2048) : EReal := Ideal.div one (two * σ (ix1 p))

/-- The four per-node coefficients of the exponent, as the kernel's prologue forms them. -/
def coefA (p : Fin 2048) : EReal := two * coord Pl p 0 * invTwoSigma σ p
def coefB (p : Fin 2048) : EReal := two * coord Pl p 1 * invTwoSigma σ p
def coefC (p : Fin 2048) : EReal := -(coord Pl p 0 * coord Pl p 0 + coord Pl p 1 * coord Pl p 1) * invTwoSigma σ p

/-- The Gaussian weight of node p at point n. -/
def rbf (n : Fin 65536) (p : Fin 2048) : EReal :=
  Ideal.exp (coord X n 0 * coefA Pl σ p + coord X n 1 * coefB Pl σ p + coefC Pl σ p
    - (coord X n 0 * coord X n 0 + coord X n 1 * coord X n 1) * invTwoSigma σ p)

/-- Numerator and denominator of the weighted mean. -/
def num (n : Fin 65536) (c : Fin 3) : EReal := ∑ p : Fin 2048, rbf X Pl σ n p * W (ix2 c p)
def den (n : Fin 65536) : EReal := ∑ p : Fin 2048, rbf X Pl σ n p

/-- The result array, index by index. -/
def G : (⟨2, ![65536, 3]⟩ : Shape).Idx → EReal := fun i => Ideal.div (num X Pl W σ (i 0) (i 1)) (den X Pl σ (i 0))

end Cert.Rbf

end
-- ==== Proof.BodyValue.lean ====
/-
  The kernel body's stored values, read at an index over the extended reals.

  One grid step adds to the accumulator tile, at row r and column c, the sum over the 512 nodes k of the step's block of
      exp( x0 · A(k) + x1 · B(k) + C(k) − (x0² + x1²) · S(k) ) · M(k, c),
  where (x0, x1) are the integer coordinates of point r read as reals, A, B, C, S are the four coefficient rows of the block
  and M is the block of the padded weight matrix. The first step of a row block clears the accumulator; the last divides
  the first three columns by the fourth.
-/
import proofs.«121839_j68848325754931_2_alg».proof.Proof.Gen.KernelIdeal.Skeleton
import proofs.«121839_j68848325754931_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Rbf

open Idealize.ShloMosaic Idealize.ShloMosaic.ValueIdx Cert.KernelIdeal Cert.KernelIdeal.Gen

/-- One column broadcast over many: the value at (p, c) is the column's value at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector at an index is the exponential of the element. -/
theorem exp_apply {s : Shape} {φ : FTy} (a : FVec Ideal s φ) (i : s.Idx) : Idealize.ShloMosaic.exp a i = Ideal.exp (a i) := rfl

/-! The matrix product's operand indices at a contraction coordinate. -/

theorem lhs_row (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
theorem lhs_col (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs_row (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs_col (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- The matrix product into the zero accumulator, at (r, c): the sum over the 512 contracted coordinates. -/
theorem matmul_at (L : FVec Ideal S2048x512 .bf16) (R : FVec Ideal S512x128 .bf16) (r : Fin 2048) (c : Fin 128) :
    matmul dot_S2048x512_S512x128_S2048x128_1_0_0_1_n_n none L R (constant (F := Ideal) S2048x128 .f32 0x00000000#32) (ix2 r c)
      = ∑ k : Fin 512, L (ix2 r k) * R (ix2 k c) := by
  simp only [matmul]
  rw [Ideal.matmul_constant_zero_apply,
    ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r c)
      ((contrEquiv1 dot_S2048x512_S512x128_S2048x128_1_0_0_1_n_n 512 rfl rfl).symm k) = ix2 r k :=
    funext fun a => Fin.ext (by
      match a with
      | ⟨0, _⟩ => exact lhs_row _ _
      | ⟨1, _⟩ => exact (lhs_col _ _).trans hk)
  have er : dot_S2048x512_S512x128_S2048x128_1_0_0_1_n_n.rhsIdx (ix2 r c)
      ((contrEquiv1 dot_S2048x512_S512x128_S2048x128_1_0_0_1_n_n 512 rfl rfl).symm k) = ix2 k c :=
    funext fun a => Fin.ext (by
      match a with
      | ⟨0, _⟩ => exact (rhs_row _ _).trans hk
      | ⟨1, _⟩ => exact rhs_col _ _)
  rw [el, er]

/-- THE ACCUMULATION STEP at (r, c). -/
theorem acc_step (x0 : Vec Ideal S2048x2 .i32) (x1 x2 x3 x4 : Vec Ideal S1x512 .f32) (x5 : Vec Ideal S512x128 .bf16)
    (xs : Vec Ideal S2048x128 .f32) (r : Fin 2048) (c : Fin 128) :
    k0_pay1 (F := Ideal) (k0_pay4 x0 x1 x2 x3 x4 x5 xs) (ix2 r c)
      = xs (ix2 r c) + ∑ k : Fin 512,
          Ideal.exp (coord x0 r 0 * x1 (ix2 0 k) + coord x0 r 1 * x2 (ix2 0 k) + x3 (ix2 0 k)
            - (coord x0 r 0 * coord x0 r 0 + coord x0 r 1 * coord x0 r 1) * x4 (ix2 0 k)) * x5 (ix2 k c) := by
  unfold k0_pay1 k0_pay4
  simp only [shapeCast_self]
  rw [addf_apply, matmul_at]
  refine congrArg (xs (ix2 r c) + ·) (Finset.sum_congr rfl fun k _ => ?_)
  simp only [truncf_apply, exp_apply, subf_apply, addf_apply, mulf_apply, broadcastTo_1b_ab_apply, broadcastTo_a1_ab_apply,
    slice2_axis1_eq, sitofp_apply]
  rfl

/-- THE FIRST STEP CLEARS the accumulator. -/
theorem acc_clear (r : Fin 2048) (c : Fin 128) : k0_pay3 (F := Ideal) (ix2 r c) = 0 := by
  unfold k0_pay3
  simp only [shapeCast_self]
  exact Ideal.ofBits_zero_f32

/-- THE LAST STEP DIVIDES the first three columns by the fourth. -/
theorem quotient_at (v : Vec Ideal S2048x128 .f32) (r : Fin 2048) (c : Fin 3) :
    k0_pay2 (F := Ideal) v (ix2 r c) = Ideal.div (v (ix2 r ⟨c.val, by omega⟩)) (v (ix2 r ⟨3, by omega⟩)) := by
  unfold k0_pay2
  rw [divf_apply, broadcastTo_a1_ab_apply,
    slice2_axis1_apply 0 v _ r c (⟨c.val, by omega⟩ : Fin 128) (Nat.zero_add _).symm,
    slice2_axis1_apply 3 v _ r (0 : Fin 1) (⟨3, by omega⟩ : Fin 128) rfl]

end Cert.Rbf

end
-- ==== Proof.PointStep.lean ====
/-
  One point's step of the accumulator, at the extended reals. At grid point t the body adds, to entry (r, cc) of the
  accumulator, the sum over the chunk's 512 nodes k of exp(x0 · a_k + x1 · b_k + c_k − (x0² + x1²) · s_k) · w(k, cc),
  the coefficients read from the point's blocks. At a row block's first point it adds it to zero.
-/
import proofs.«121839_j68848325754931_2_alg».proof.Proof.BodyLeaves
import proofs.«121839_j68848325754931_2_alg».proof.Proof.BodyValue

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The term node k of a chunk contributes to entry (r, cc), from the six blocks. -/
def chunkTermOf (x0 : Vec Ideal S2048x2 .i32) (x1 x2 x3 x4 : Vec Ideal S1x512 .f32) (x5 : Vec Ideal S512x128 .bf16)
    (r : Fin 2048) (cc : Fin 128) (k : Fin 512) : EReal :=
  Ideal.exp (Cert.Rbf.coord x0 r 0 * x1 (ix2 0 k) + Cert.Rbf.coord x0 r 1 * x2 (ix2 0 k) + x3 (ix2 0 k)
      - (Cert.Rbf.coord x0 r 0 * Cert.Rbf.coord x0 r 0 + Cert.Rbf.coord x0 r 1 * Cert.Rbf.coord x0 r 1) * x4 (ix2 0 k))
    * x5 (ix2 k cc)

/-- The step, over variables, with the chunk's term named. -/
theorem step_eq (x0 : Vec Ideal S2048x2 .i32) (x1 x2 x3 x4 : Vec Ideal S1x512 .f32) (x5 : Vec Ideal S512x128 .bf16)
    (xs : Vec Ideal S2048x128 .f32) (r : Fin 2048) (cc : Fin 128) :
    k0_pay1 (F := Ideal) (k0_pay4 x0 x1 x2 x3 x4 x5 xs) (ix2 r cc) = xs (ix2 r cc) + ∑ k : Fin 512, chunkTermOf x0 x1 x2 x3 x4 x5 r cc k :=
  Cert.Rbf.acc_step x0 x1 x2 x3 x4 x5 xs r cc

theorem step_zero_eq (x0 : Vec Ideal S2048x2 .i32) (x1 x2 x3 x4 : Vec Ideal S1x512 .f32) (x5 : Vec Ideal S512x128 .bf16)
    (r : Fin 2048) (cc : Fin 128) :
    k0_pay1 (F := Ideal) (k0_pay4 x0 x1 x2 x3 x4 x5 (k0_pay3 (F := Ideal))) (ix2 r cc) = ∑ k : Fin 512, chunkTermOf x0 x1 x2 x3 x4 x5 r cc k := by
  rw [step_eq, Cert.Rbf.acc_clear, zero_add]

theorem quot_eq (v : Vec Ideal S2048x128 .f32) (r : Fin 2048) (cc : Fin 3) :
    k0_pay2 (F := Ideal) v (ix2 r cc) = Ideal.div (v (ix2 r ⟨cc.val, by omega⟩)) (v (ix2 r ⟨3, by omega⟩)) :=
  Cert.Rbf.quotient_at v r cc

/-- The term node k of point t's chunk contributes to entry (r, cc). -/
def chunkTerm (t : Fin cfg0.N) (r : Fin 2048) (cc : Fin 128) (k : Fin 512) : EReal :=
  chunkTermOf (blockAt m c 0 t) (blockAt m c 1 t) (blockAt m c 2 t) (blockAt m c 3 t) (blockAt m c 4 t) (blockAt m c 5 t) r cc k

set_option maxHeartbeats 1600000 in
/-- At a row block's first point the accumulator ends at the chunk's sum. -/
theorem acc_at_first (t : Fin cfg0.N) (h0 : t.val % 4 = 0) (r : Fin 2048) (cc : Fin 128) :
    (afterPoint m c t.val t.isLt).2 (ix2 r cc) = ∑ k : Fin 512, chunkTerm m c t r cc k := by
  have hN : t.val < 128 := lt_of_lt_of_eq t.isLt N_0
  have h1 : ¬t.val % 4 = 3 := by omega
  rw [after_first m c t h0 h1]
  dsimp only
  rw [accFirst_eq]
  exact step_zero_eq (blockAt m c 0 t) (blockAt m c 1 t) (blockAt m c 2 t) (blockAt m c 3 t) (blockAt m c 4 t) (blockAt m c 5 t) r cc

set_option maxHeartbeats 1600000 in
/-- At any other point it ends at what the point before left plus the chunk's sum. -/
theorem acc_at_later (t : Fin cfg0.N) (h0 : ¬t.val % 4 = 0) (r : Fin 2048) (cc : Fin 128) :
    (afterPoint m c t.val t.isLt).2 (ix2 r cc)
      = (afterPoint m c (t.val - 1) (Nat.lt_of_le_of_lt (Nat.sub_le _ _) t.isLt)).2 (ix2 r cc) + ∑ k : Fin 512, chunkTerm m c t r cc k := by
  by_cases h1 : t.val % 4 = 3
  · rw [after_last m c t h0 h1]
    dsimp only
    rw [accLast_eq]
    exact step_eq (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2 r cc
  · rw [after_middle m c t h0 h1]
    dsimp only
    rw [accMiddle_eq]
    exact step_eq (blockAt m c 0 t) (blockAt m c 1 t) (blockAt m c 2 t) (blockAt m c 3 t) (blockAt m c 4 t) (blockAt m c 5 t) (afterPoint m c (t.val - 1) (Nat.lt_of_le_of_lt (Nat.sub_le _ _) t.isLt)).2 r cc

set_option maxHeartbeats 1600000 in
/-- Where the quotient is stored, the output block's entry (r, cc) is the accumulator's entry (r, cc) over its entry (r, 3). -/
theorem out_at_last (t : Fin cfg0.N) (h1 : t.val % 4 = 3) (r : Fin 2048) (cc : Fin 3) :
    (afterPoint m c t.val t.isLt).1 (ix2 r cc)
      = Ideal.div ((afterPoint m c t.val t.isLt).2 (ix2 r ⟨cc.val, by omega⟩)) ((afterPoint m c t.val t.isLt).2 (ix2 r ⟨3, by omega⟩)) := by
  have h0 : ¬t.val % 4 = 0 := by omega
  rw [after_last m c t h0 h1]
  dsimp only
  rw [outLast_eq, accLast_eq]
  exact quot_eq _ r cc

end Cert.KernelIdeal.Region

end
-- ==== Proof.BlockRead.lean ====
/-
  Each window's block at a grid point, read at explicit coordinates.

  The grid is 32 × 4; point t has first coordinate t / 4 and second t mod 4. The point table and the output are cut
  in blocks of 2048 rows along the first coordinate; the four coefficient rows and the padded weight matrix are cut in
  blocks of 512 nodes along the second. A block's element sits in its array at block index × block size + its own
  coordinate. The output's blocks, written back at the points with second coordinate 3, cover the output array.
-/
import proofs.«121839_j68848325754931_2_alg».proof.Proof.RegionEntryI
import Idealize.ShloMosaic.Lib.ValueIdx

set_option maxRecDepth 16384

noncomputable section

namespace Cert.Rbf

open Cert.KernelIdeal Cert.KernelIdeal.Gen Cert.KernelIdeal.Region
open Idealize.ShloMosaic Idealize.ShloMosaic.ValueIdx Idealize.ShloMosaic.TcCoe Idealize.SL.Sem

variable {F : FTy → Type} [FloatOps F]
variable (m : (ℓ : Loc nD τ sig) → Buf (Elt F) ℓ) (c : Dev nD)

/-- The grid has 128 points. -/
theorem point_lt (t : Fin cfg0.N) : t.val < 128 :=
  Nat.lt_of_lt_of_eq t.isLt (show cfg0.N = 128 from N_0)

/-- The windows' block indices at every point of the grid. -/
theorem idx_facts : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = 0 ∧ win0_2.index t (1 : Fin 2) = t.val % 4)
    ∧ (win0_3.index t (0 : Fin 2) = 0 ∧ win0_3.index t (1 : Fin 2) = t.val % 4)
    ∧ (win0_4.index t (0 : Fin 2) = 0 ∧ win0_4.index t (1 : Fin 2) = t.val % 4)
    ∧ (win0_5.index t (0 : Fin 2) = t.val % 4 ∧ win0_5.index t (1 : Fin 2) = 0)
    ∧ (win0_6.index t (0 : Fin 2) = t.val / 4 ∧ win0_6.index t (1 : Fin 2) = 0) :=
  (by decide +kernel : ∀ t : Fin grid0.N, _)

/-- The block of points at t: rows 2048 (t / 4) … of the point table. -/
theorem block0_at (t : Fin cfg0.N) (r : Fin 2048) (k : Fin 2) :
    (blockAt m c 0 t : S2048x2.Idx → Elt F .i32) (ix2 r k)
      = (V m c main_arg0 : S65536x2.Idx → Elt F .i32)
          (ix2 ⟨2048 * (t.val / 4) + r.val, by have := point_lt t; have := r.isLt; omega⟩ k) := by
  obtain ⟨⟨e0, e1⟩, -⟩ := idx_facts t
  show V m c main_arg0 (((cfg0.win 0).blk t).view.emb (ix2 r k)) = _
  refine congrArg _ (funext fun a => Fin.ext ?_)
  match a with
  | ⟨0, _⟩ => show win0_0.index t (0 : Fin 2) * 2048 + 1 * r.val = 2048 * (t.val / 4) + r.val; rw [e0]; omega
  | ⟨1, _⟩ => show win0_0.index t (1 : Fin 2) * 2 + 1 * k.val = k.val; rw [e1]; omega

/-- The block of the first coefficient row at t: nodes 512 (t mod 4) … . -/
theorem block1_at (t : Fin cfg0.N) (k : Fin 512) :
    (blockAt m c 1 t : S1x512.Idx → Elt F .f32) (ix2 0 k)
      = (V m c main_v17 : S1x2048.Idx → Elt F .f32)
          (ix2 0 ⟨512 * (t.val % 4) + k.val, by have := k.isLt; omega⟩) := by
  obtain ⟨e0, e1⟩ := (idx_facts t).2.1
  show V m c main_v17 (((cfg0.win 1).blk t).view.emb (ix2 0 k)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 512 + 1 * k.val = 512 * (t.val % 4) + k.val; rw [e1]; omega

/-- The block of the second coefficient row at t. -/
theorem block2_at (t : Fin cfg0.N) (k : Fin 512) :
    (blockAt m c 2 t : S1x512.Idx → Elt F .f32) (ix2 0 k)
      = (V m c main_v20 : S1x2048.Idx → Elt F .f32)
          (ix2 0 ⟨512 * (t.val % 4) + k.val, by have := k.isLt; omega⟩) := by
  obtain ⟨e0, e1⟩ := (idx_facts t).2.2.1
  show V m c main_v20 (((cfg0.win 2).blk t).view.emb (ix2 0 k)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * k.val = 512 * (t.val % 4) + k.val; rw [e1]; omega

/-- The block of the third coefficient row at t. -/
theorem block3_at (t : Fin cfg0.N) (k : Fin 512) :
    (blockAt m c 3 t : S1x512.Idx → Elt F .f32) (ix2 0 k)
      = (V m c main_v22 : S1x2048.Idx → Elt F .f32)
          (ix2 0 ⟨512 * (t.val % 4) + k.val, by have := k.isLt; omega⟩) := by
  obtain ⟨e0, e1⟩ := (idx_facts t).2.2.2.1
  show V m c main_v22 (((cfg0.win 3).blk t).view.emb (ix2 0 k)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 512 + 1 * k.val = 512 * (t.val % 4) + k.val; rw [e1]; omega

/-- The block of the row of 1 / (2 σ²) at t. -/
theorem block4_at (t : Fin cfg0.N) (k : Fin 512) :
    (blockAt m c 4 t : S1x512.Idx → Elt F .f32) (ix2 0 k)
      = (V m c main_v14 : S1x2048.Idx → Elt F .f32)
          (ix2 0 ⟨512 * (t.val % 4) + k.val, by have := k.isLt; omega⟩) := by
  obtain ⟨e0, e1⟩ := (idx_facts t).2.2.2.2.1
  show V m c main_v14 (((cfg0.win 4).blk t).view.emb (ix2 0 k)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 512 + 1 * k.val = 512 * (t.val % 4) + k.val; rw [e1]; omega

/-- The block of the padded weight matrix at t: rows 512 (t mod 4) … . -/
theorem block5_at (t : Fin cfg0.N) (k : Fin 512) (cc : Fin 128) :
    (blockAt m c 5 t : S512x128.Idx → Elt F .bf16) (ix2 k cc)
      = (V m c main_v27 : S2048x128.Idx → Elt F .bf16)
          (ix2 ⟨512 * (t.val % 4) + k.val, by have := k.isLt; omega⟩ cc) := by
  obtain ⟨e0, e1⟩ := (idx_facts t).2.2.2.2.2.1
  show V m c main_v27 (((cfg0.win 5).blk t).view.emb (ix2 k cc)) = _
  refine congrArg _ (funext fun a => Fin.ext ?_)
  match a with
  | ⟨0, _⟩ => show win0_5.index t (0 : Fin 2) * 512 + 1 * k.val = 512 * (t.val % 4) + k.val; rw [e0]; omega
  | ⟨1, _⟩ => show win0_5.index t (1 : Fin 2) * 128 + 1 * cc.val = cc.val; rw [e1]; omega

/-- The output's block at t of any contents G of the output array: rows 2048 (t / 4) … of G. -/
theorem block6_read (G : S65536x3.Idx → Elt F .f32) (t : Fin cfg0.N) (r : Fin 2048) (cc : Fin 3) :
    (((cfg0.win 6).blk t).view.read (Elt F) G : S2048x3.Idx → Elt F .f32) (ix2 r cc)
      = G (ix2 ⟨2048 * (t.val / 4) + r.val, by have := point_lt t; have := r.isLt; omega⟩ cc) := by
  obtain ⟨e0, e1⟩ := (idx_facts t).2.2.2.2.2.2
  show G (((cfg0.win 6).blk t).view.emb (ix2 r cc)) = _
  refine congrArg G (funext fun a => Fin.ext ?_)
  match a with
  | ⟨0, _⟩ => show win0_6.index t (0 : Fin 2) * 2048 + 1 * r.val = 2048 * (t.val / 4) + r.val; rw [e0]; omega
  | ⟨1, _⟩ => show win0_6.index t (1 : Fin 2) * 3 + 1 * cc.val = cc.val; rw [e1]; omega

/-- An index of the output array is in point t's block iff each coordinate is in the block's range on its axis. -/
theorem mem_block6 (t : Fin cfg0.N) (i : S65536x3.Idx) :
    i ∈ ((cfg0.win 6).blk t).view.set
      ↔ ∀ a : Fin 2, win0_6.index t a * S2048x3.size a ≤ (i a).val ∧ (i a).val < win0_6.index t a * S2048x3.size a + S2048x3.size a := by
  show i ∈ ((View.whole main_v28).slice (win0_6.rect t)).set ↔ _
  rw [View.set_slice_whole, Rect.mem_set_unit]
  exact Iff.rfl

/-- THE COVER: row n of the output is in the block written back at point 4 (n / 2048) + 3. -/
theorem cover6 : ∀ i : S65536x3.Idx, ∃ t : Fin cfg0.N, (cfg0.win 6).flush t = true ∧ i ∈ ((cfg0.win 6).blk t).view.set := by
  intro i
  have hi0 : (i 0).val < 65536 := (i 0).isLt
  have hi1 : (i 1).val < 3 := (i 1).isLt
  have hN : cfg0.N = 128 := N_0
  let t : Fin cfg0.N := ⟨4 * ((i 0).val / 2048) + 3, by rw [hN]; omega⟩
  have ht : t.val = 4 * ((i 0).val / 2048) + 3 := rfl
  obtain ⟨e0, e1⟩ := (idx_facts t).2.2.2.2.2.2
  refine ⟨t, (flush0_6 t).mpr (by rw [ht]; omega), ?_⟩
  rw [mem_block6]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 3 ≤ (i 1).val ∧ (i 1).val < win0_6.index t (1 : Fin 2) * 3 + 3
    rw [e1]; omega

end Cert.Rbf

end
-- ==== Proof.PrologueValue.lean ====
/-
  The prologue's arrays, as the region finds them.

  Before the grid the program computes, from the node table, the bandwidths and the weights: the row s = 1 / (2 σ²), the
  three coefficient rows 2 p0 s, 2 p1 s and −(p0² + p1²) s, and the transposed weights padded to 128 columns (W's three
  channels, a column of ones, zeros). Each array is first identified with the term of operations that wrote it, then read
  at an index in the specification's terms.
-/
import proofs.«121839_j68848325754931_2_alg».proof.Proof.RegionEntryI
import proofs.«121839_j68848325754931_2_alg».proof.Proof.Spec
import Idealize.ShloMosaic.Lib.StableHlo.Run
import Idealize.ShloMosaic.Lib.ValueLayout
import Idealize.ShloMosaic.PureOps.Ideal.Laws

set_option maxRecDepth 16384

noncomputable section

namespace Cert.Rbf

open Idealize.ShloMosaic Idealize.ShloMosaic.ValueIdx Idealize.ShloMosaic.TcCoe Idealize.ShloMosaic.StableHlo
open Cert.KernelIdeal Cert.KernelIdeal.Gen Cert.KernelIdeal.Region Idealize.SL.Sem

variable (m : (ℓ : Loc nD τ sig) → Buf (Elt Ideal) ℓ) (c : Dev nD)

/-! ## Small reads -/

/-- An [a, 1] array cast to [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A scalar constant broadcast to any shape reads the constant's value everywhere. -/
theorem bcast_const_apply {t : Shape} (h : S_.BroadcastsInDim t (![] : Fin 0 → Fin t.rank)) (b : BitVec 32) (j : t.Idx) :
    broadcastInDim t ![] h (constant (F := Ideal) S_ .f32 b) j = Ideal.ofBits .f32 b := rfl

/-- The result of a three-operand host operation, each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-! ## The prologue's terms -/

section Terms
variable (Pl : IVec S2048x2 32) (W : FVec Ideal S3x2048 .f32) (σ : FVec Ideal S2048 .f32)

/-- Column k of the node table as a row [1, 2048]. -/
abbrev rowT0 : FVec Ideal S1x2048 .f32 :=
  shapeCast S1x2048 (shapeCast S2048 (extractStridedSlice S2048x1 ![0, 0] (sitofp (F := Ideal) .f32 Pl) slices_S2048x2_S2048x1_0_0)
    shapeCasts_S2048x1_S2048) shapeCasts_S2048_S1x2048
abbrev rowT1 : FVec Ideal S1x2048 .f32 :=
  shapeCast S1x2048 (shapeCast S2048 (extractStridedSlice S2048x1 ![0, 1] (sitofp (F := Ideal) .f32 Pl) slices_S2048x2_S2048x1_0_1)
    shapeCasts_S2048x1_S2048) shapeCasts_S2048_S1x2048
/-- 1 / (2 σ²) as a row. -/
abbrev sT : FVec Ideal S1x2048 .f32 :=
  shapeCast S1x2048 (Host.divf (broadcastInDim S2048 ![] bcast_S_S2048 (constant (F := Ideal) S_ .f32 0x3F800000#32))
    (mulf (broadcastInDim S2048 ![] bcast_S_S2048 (constant (F := Ideal) S_ .f32 0x40000000#32)) σ)) shapeCasts_S2048_S1x2048
abbrev aT : FVec Ideal S1x2048 .f32 :=
  mulf (mulf (broadcastInDim S1x2048 ![] bcast_S_S1x2048 (constant (F := Ideal) S_ .f32 0x40000000#32)) (rowT0 Pl)) (sT σ)
abbrev bT : FVec Ideal S1x2048 .f32 :=
  mulf (mulf (broadcastInDim S1x2048 ![] bcast_S_S1x2048 (constant (F := Ideal) S_ .f32 0x40000000#32)) (rowT1 Pl)) (sT σ)
abbrev cT : FVec Ideal S1x2048 .f32 :=
  mulf (Host.negf (addf (mulf (rowT0 Pl) (rowT0 Pl)) (mulf (rowT1 Pl) (rowT1 Pl)))) (sT σ)
/-- The transposed weights padded to 128 columns: W's three channels, a column of ones, zeros. -/
abbrev wT : FVec Ideal S2048x128 .bf16 :=
  truncf .bf16 (concatenate S2048x128 1
    [⟨S2048x3, transpose S2048x3 [1, 0] W transposes_S3x2048_S2048x3_1_0⟩,
     ⟨S2048x1, broadcastInDim S2048x1 ![] bcast_S_S2048x1 (constant (F := Ideal) S_ .f32 0x3F800000#32)⟩,
     ⟨S2048x124, broadcastInDim S2048x124 ![] bcast_S_S2048x124 (constant (F := Ideal) S_ .f32 0x00000000#32)⟩]
    concatenates_S2048x3_S2048x1_S2048x124_S2048x128_d1) bitsLt_bf16_f32

end Terms

/-! ## The region-entry arrays are those terms -/

/-- Each host operation's result, at its own result buffer and at any other buffer. -/
local macro "results_loop" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

theorem v14_term : (V m c main_v14 : S1x2048.Idx → EReal) = sT (m ((c : Thread nD τ).loc main_arg3)) := by
  dsimp only [Cert.KernelIdeal.Region.V, hostOps0]
  after_results
  rfl

theorem v17_term : (V m c main_v17 : S1x2048.Idx → EReal)
    = aT (m ((c : Thread nD τ).loc main_arg1)) (m ((c : Thread nD τ).loc main_arg3)) := by
  dsimp only [Cert.KernelIdeal.Region.V, hostOps0]
  after_results
  rfl

theorem v20_term : (V m c main_v20 : S1x2048.Idx → EReal)
    = bT (m ((c : Thread nD τ).loc main_arg1)) (m ((c : Thread nD τ).loc main_arg3)) := by
  dsimp only [Cert.KernelIdeal.Region.V, hostOps0]
  after_results
  rfl

theorem v22_term : (V m c main_v22 : S1x2048.Idx → EReal)
    = cT (m ((c : Thread nD τ).loc main_arg1)) (m ((c : Thread nD τ).loc main_arg3)) := by
  dsimp only [Cert.KernelIdeal.Region.V, hostOps0]
  after_results_simp
  rfl

theorem v27_term : (V m c main_v27 : S2048x128.Idx → EReal) = wT (m ((c : Thread nD τ).loc main_arg2)) := by
  dsimp only [Cert.KernelIdeal.Region.V, hostOps0]
  simp only [after_cons, after_nil]
  rw [unary_result, nary3_result]
  results_loop
  rfl

/-! ## The terms read at an index -/

section Reads
variable (Pl : IVec S2048x2 32) (W : FVec Ideal S3x2048 .f32) (σ : FVec Ideal S2048 .f32)

theorem rowT0_at (p : Fin 2048) : rowT0 Pl (ix2 0 p) = coord Pl p 0 := by
  unfold rowT0
  rw [shapeCast_a_1a_apply, shapeCast_a1_a_apply, slice2_axis1_apply 0 _ _ p (0 : Fin 1) (0 : Fin 2) rfl]
  rfl

theorem rowT1_at (p : Fin 2048) : rowT1 Pl (ix2 0 p) = coord Pl p 1 := by
  unfold rowT1
  rw [shapeCast_a_1a_apply, shapeCast_a1_a_apply, slice2_axis1_apply 1 _ _ p (0 : Fin 1) (1 : Fin 2) rfl]
  rfl

theorem sT_at (p : Fin 2048) : sT σ (ix2 0 p) = invTwoSigma σ p := by
  unfold sT
  rw [shapeCast_a_1a_apply]
  rfl

theorem aT_at (p : Fin 2048) : aT Pl σ (ix2 0 p) = coefA Pl σ p := by
  unfold aT coefA
  rw [mulf_apply, mulf_apply, bcast_const_apply, rowT0_at, sT_at]

theorem bT_at (p : Fin 2048) : bT Pl σ (ix2 0 p) = coefB Pl σ p := by
  unfold bT coefB
  rw [mulf_apply, mulf_apply, bcast_const_apply, rowT1_at, sT_at]

theorem cT_at (p : Fin 2048) : cT Pl σ (ix2 0 p) = coefC Pl σ p := by
  unfold cT coefC
  rw [mulf_apply, sT_at]
  show -(rowT0 Pl (ix2 0 p) * rowT0 Pl (ix2 0 p) + rowT1 Pl (ix2 0 p) * rowT1 Pl (ix2 0 p)) * _ = _
  rw [rowT0_at, rowT1_at]

/-- Columns 0, 1, 2 of the padded matrix are W's channels. -/
theorem wT_lt (p : Fin 2048) (cc : Fin 128) (h : cc.val < 3) : wT W (ix2 p cc) = W (ix2 ⟨cc.val, h⟩ p) := by
  unfold wT
  rw [truncf_apply]
  refine (concatenate_apply_piece (1 : Fin S2048x128.rank) _ _ (ix2 p cc) 0 (by simp) S2048x3 _ rfl rfl 0 rfl
    (ix2 p (⟨cc.val, h⟩ : Fin 3)) (fun b hb => ?_) ?_).trans ?_
  · match b with
    | ⟨0, _⟩ => rfl
    | ⟨1, _⟩ => exact absurd rfl hb
  · exact Nat.zero_add _
  · exact transpose_ix2_apply W _ p ⟨cc.val, h⟩

/-- Column 3 is the constant one. -/
theorem wT_eq (p : Fin 2048) (cc : Fin 128) (h : cc.val = 3) : wT W (ix2 p cc) = one := by
  unfold wT
  rw [truncf_apply]
  refine (concatenate_apply_piece (1 : Fin S2048x128.rank) _ _ (ix2 p cc) 1 (by simp) S2048x1 _ rfl rfl 3 rfl
    (ix2 p (0 : Fin 1)) (fun b hb => ?_) ?_).trans ?_
  · match b with
    | ⟨0, _⟩ => rfl
    | ⟨1, _⟩ => exact absurd rfl hb
  · show 3 + 0 = cc.val
    omega
  · exact bcast_const_apply _ _ _

/-- Columns 4 to 127 are zero. -/
theorem wT_gt (p : Fin 2048) (cc : Fin 128) (h : 3 < cc.val) : wT W (ix2 p cc) = 0 := by
  unfold wT
  rw [truncf_apply]
  refine (concatenate_apply_piece (1 : Fin S2048x128.rank) _ _ (ix2 p cc) 2 (by simp) S2048x124 _ rfl rfl 4 rfl
    (ix2 p (⟨cc.val - 4, by omega⟩ : Fin 124)) (fun b hb => ?_) ?_).trans ?_
  · match b with
    | ⟨0, _⟩ => rfl
    | ⟨1, _⟩ => exact absurd rfl hb
  · show 4 + (cc.val - 4) = cc.val
    omega
  · exact (bcast_const_apply _ _ _).trans Ideal.ofBits_zero_f32

end Reads

/-- The literal one is the extended real 1. -/
theorem one_val : one = (1 : EReal) := by
  have h : one = ((1 : ℝ) : EReal) := by
    simp [one, Ideal.ofBits, Ideal.ieee, -EReal.coe_mul]; norm_num
  rw [h, EReal.coe_one]

/-! ## What the region finds in the five computed window arrays -/

/-- The row of 1 / (2 σ²). -/
theorem entry_s (p : Fin 2048) :
    (V m c main_v14 : S1x2048.Idx → EReal) (ix2 0 p) = invTwoSigma (m ((c : Thread nD τ).loc main_arg3)) p := by
  rw [v14_term]; exact sT_at _ p
/-- The row of 2 p0 s. -/
theorem entry_a (p : Fin 2048) :
    (V m c main_v17 : S1x2048.Idx → EReal) (ix2 0 p)
      = coefA (m ((c : Thread nD τ).loc main_arg1)) (m ((c : Thread nD τ).loc main_arg3)) p := by
  rw [v17_term]; exact aT_at _ _ p
/-- The row of 2 p1 s. -/
theorem entry_b (p : Fin 2048) :
    (V m c main_v20 : S1x2048.Idx → EReal) (ix2 0 p)
      = coefB (m ((c : Thread nD τ).loc main_arg1)) (m ((c : Thread nD τ).loc main_arg3)) p := by
  rw [v20_term]; exact bT_at _ _ p
/-- The row of −(p0² + p1²) s. -/
theorem entry_c (p : Fin 2048) :
    (V m c main_v22 : S1x2048.Idx → EReal) (ix2 0 p)
      = coefC (m ((c : Thread nD τ).loc main_arg1)) (m ((c : Thread nD τ).loc main_arg3)) p := by
  rw [v22_term]; exact cT_at _ _ p
/-- The padded transposed weights: W's three channels, -/
theorem entry_w_lt (p : Fin 2048) (cc : Fin 128) (h : cc.val < 3) :
    (V m c main_v27 : S2048x128.Idx → EReal) (ix2 p cc)
      = (m ((c : Thread nD τ).loc main_arg2) : S3x2048.Idx → EReal) (ix2 ⟨cc.val, h⟩ p) := by
  rw [v27_term]; exact wT_lt _ p cc h
/-- a column of ones, -/
theorem entry_w_eq (p : Fin 2048) (cc : Fin 128) (h : cc.val = 3) :
    (V m c main_v27 : S2048x128.Idx → EReal) (ix2 p cc) = (1 : EReal) := by
  rw [v27_term, wT_eq _ p cc h, one_val]
/-- and zeros. -/
theorem entry_w_gt (p : Fin 2048) (cc : Fin 128) (h : 3 < cc.val) :
    (V m c main_v27 : S2048x128.Idx → EReal) (ix2 p cc) = (0 : EReal) := by
  rw [v27_term]; exact wT_gt _ p cc h

end Cert.Rbf

end
-- ==== Proof.ChunkSum.lean ====
/-
  A sum over the first 2048 naturals, taken 512 at a time.
-/
import Mathlib.Algebra.BigOperators.Fin

namespace Cert.Rbf

open scoped BigOperators

variable {M : Type*} [AddCommMonoid M]

/-- One more chunk of 512 terms. -/
theorem range_chunk (g : ℕ → M) (j : ℕ) :
    ∑ q ∈ Finset.range (512 * (j + 1)), g q = ∑ q ∈ Finset.range (512 * j), g q + ∑ k : Fin 512, g (512 * j + k.val) := by
  rw [Nat.mul_succ, Finset.sum_range_add]
  exact congrArg (_ + ·) (Finset.sum_range fun x => g (512 * j + x))

/-- The first chunk. -/
theorem range_first (g : ℕ → M) : ∑ q ∈ Finset.range (512 * (0 + 1)), g q = ∑ k : Fin 512, g k.val := by
  rw [Finset.sum_range]

/-- Four chunks are all 2048 terms. -/
theorem range_all (g : ℕ → M) : ∑ q ∈ Finset.range (512 * (3 + 1)), g q = ∑ p : Fin 2048, g p.val := by
  rw [Finset.sum_range]

end Cert.Rbf
-- ==== Proof.RunningSum.lean ====
/-
  The kernel's result array. Reading the point's blocks at global indices and the prologue's rows in closed form,
  the term node k of point t's chunk adds to entry (r, cc) is rbf(n, p) · w(p, cc) with n = 2048 ⌊t/4⌋ + r and
  p = 512 (t mod 4) + k, where w is the weight matrix transposed with a column of ones and zero columns appended.
  By induction on the point, the accumulator after point t holds the sum of these terms over the first
  512 (t mod 4 + 1) nodes; after a row block's last point that is the sum over all 2048 nodes, whose first three
  columns are the weighted sums and whose fourth is the sum of the weights themselves. The stored quotient is the
  weighted mean, and the written-back blocks tile the result array.
-/
import proofs.«121839_j68848325754931_2_alg».proof.Proof.PointStep
import proofs.«121839_j68848325754931_2_alg».proof.Proof.BlockRead
import proofs.«121839_j68848325754931_2_alg».proof.Proof.PrologueValue
import proofs.«121839_j68848325754931_2_alg».proof.Proof.ChunkSum

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

open Cert.Rbf in
/-- The padded weight matrix as the region finds it. -/
def wExt (p : Fin 2048) (cc : Fin 128) : EReal := (V m c main_v27 : S2048x128.Idx → EReal) (ix2 p cc)

/-- Node q's term for row `row` and column cc, total in both indices. -/
def nodeTerm (row : ℕ) (cc : Fin 128) (q : ℕ) : EReal :=
  if h : row < 65536 ∧ q < 2048 then
    Cert.Rbf.rbf (m ((c : Thread nD τ).loc main_arg0)) (m ((c : Thread nD τ).loc main_arg1)) (m ((c : Thread nD τ).loc main_arg3)) ⟨row, h.1⟩ ⟨q, h.2⟩
      * wExt m c ⟨q, h.2⟩ cc
  else 0

set_option maxHeartbeats 1600000 in
/-- A chunk's term is the node's term at the global row and node. -/
theorem chunkTerm_eq (t : Fin cfg0.N) (r : Fin 2048) (cc : Fin 128) (k : Fin 512) :
    chunkTerm m c t r cc k = nodeTerm m c (2048 * (t.val / 4) + r.val) cc (512 * (t.val % 4) + k.val) := by
  have hN := Cert.Rbf.point_lt t
  have hrow : 2048 * (t.val / 4) + r.val < 65536 := by omega
  have hq : 512 * (t.val % 4) + k.val < 2048 := by omega
  have e0 : ∀ k' : Fin 2, Cert.Rbf.coord (blockAt m c 0 t) r k'
      = Cert.Rbf.coord (m ((c : Thread nD τ).loc main_arg0)) ⟨2048 * (t.val / 4) + r.val, hrow⟩ k' := fun k' => by
    unfold Cert.Rbf.coord
    rw [Cert.Rbf.block0_at m c t r k', V_arg0]
  have e1 := (Cert.Rbf.block1_at m c t k).trans (Cert.Rbf.entry_a m c ⟨512 * (t.val % 4) + k.val, hq⟩)
  have e2 := (Cert.Rbf.block2_at m c t k).trans (Cert.Rbf.entry_b m c ⟨512 * (t.val % 4) + k.val, hq⟩)
  have e3 := (Cert.Rbf.block3_at m c t k).trans (Cert.Rbf.entry_c m c ⟨512 * (t.val % 4) + k.val, hq⟩)
  have e4 := (Cert.Rbf.block4_at m c t k).trans (Cert.Rbf.entry_s m c ⟨512 * (t.val % 4) + k.val, hq⟩)
  have e5 := Cert.Rbf.block5_at m c t k cc
  unfold nodeTerm
  rw [dif_pos ⟨hrow, hq⟩]
  unfold chunkTerm chunkTermOf Cert.Rbf.rbf wExt
  rw [e0 0, e0 1, e1, e2, e3, e4, e5]

/-- The accumulator after point n holds the partial sums over the first 512 (n mod 4 + 1) nodes. -/
theorem acc_closed : ∀ (n : ℕ) (h : n < cfg0.N) (r : Fin 2048) (cc : Fin 128),
    (afterPoint m c n h).2 (ix2 r cc)
      = ∑ q ∈ Finset.range (512 * (n % 4 + 1)), nodeTerm m c (2048 * (n / 4) + r.val) cc q := by
  intro n
  induction n with
  | zero =>
    intro h r cc
    refine (acc_at_first m c ⟨0, h⟩ rfl r cc).trans ?_
    rw [show (0 : ℕ) % 4 + 1 = 0 + 1 from rfl, Cert.Rbf.range_first]
    refine Finset.sum_congr rfl fun k _ => ?_
    refine (chunkTerm_eq m c ⟨0, h⟩ r cc k).trans ?_
    show nodeTerm m c (2048 * (0 / 4) + r.val) cc (512 * (0 % 4) + k.val) = _
    rw [show 512 * (0 % 4) + k.val = k.val from by omega]
  | succ n ih =>
    intro h r cc
    by_cases h0 : (n + 1) % 4 = 0
    · refine (acc_at_first m c ⟨n + 1, h⟩ h0 r cc).trans ?_
      rw [h0, Cert.Rbf.range_first]
      refine Finset.sum_congr rfl fun k _ => ?_
      refine (chunkTerm_eq m c ⟨n + 1, h⟩ r cc k).trans ?_
      show nodeTerm m c (2048 * ((n + 1) / 4) + r.val) cc (512 * ((n + 1) % 4) + k.val) = _
      rw [h0, show 512 * 0 + k.val = k.val from by omega]
    · refine (acc_at_later m c ⟨n + 1, h⟩ h0 r cc).trans ?_
      have e1 : (n + 1) / 4 = n / 4 := by omega
      have e2 : (n + 1) % 4 = n % 4 + 1 := by omega
      rw [e1, e2, Cert.Rbf.range_chunk]
      refine congrArg₂ (· + ·) ((ih (Nat.lt_of_succ_lt h) r cc)) (Finset.sum_congr rfl fun k _ => ?_)
      refine (chunkTerm_eq m c ⟨n + 1, h⟩ r cc k).trans ?_
      show nodeTerm m c (2048 * ((n + 1) / 4) + r.val) cc (512 * ((n + 1) % 4) + k.val) = _
      rw [e1, e2]

end Cert.KernelIdeal.Region

end
-- ==== Proof.KernelValue.lean ====
/-
  The kernel's result array is the weighted mean. After a row block's last point the accumulator's entry (r, cc) is
  the sum over all 2048 nodes p of rbf(n, p) · w(p, cc); for cc < 3 the weight w(p, cc) is W(cc, p) and for cc = 3 it is 1,
  so the quotient stored there is (Σ_p rbf(n, p) W(cc, p)) / (Σ_p rbf(n, p)). The 32 written-back blocks are the
  restrictions of this one function to consecutive row blocks, and together they cover the array.
-/
import proofs.«121839_j68848325754931_2_alg».proof.Proof.RunningSum

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The specification at the arguments as launched on core c. -/
abbrev spec : S65536x3.Idx → EReal := Cert.Rbf.G (m ((c : Thread nD τ).loc main_arg0)) (m ((c : Thread nD τ).loc main_arg1)) (m ((c : Thread nD τ).loc main_arg2)) (m ((c : Thread nD τ).loc main_arg3))

set_option maxHeartbeats 1600000 in
/-- Where the quotient is stored, the output block's entry (r, cc) is the specification at the global row. -/
theorem out_closed (t : Fin cfg0.N) (h1 : t.val % 4 = 3) (r : Fin 2048) (cc : Fin 3)
    (hrow : 2048 * (t.val / 4) + r.val < 65536) :
    (afterPoint m c t.val t.isLt).1 (ix2 r cc) = spec m c (ix2 ⟨2048 * (t.val / 4) + r.val, hrow⟩ cc) := by
  rw [out_at_last m c t h1 r cc, acc_closed, acc_closed, h1, Cert.Rbf.range_all, Cert.Rbf.range_all]
  show _ = Ideal.div (Cert.Rbf.num _ _ _ _ ⟨2048 * (t.val / 4) + r.val, hrow⟩ cc) (Cert.Rbf.den _ _ _ ⟨2048 * (t.val / 4) + r.val, hrow⟩)
  unfold Cert.Rbf.num Cert.Rbf.den
  refine congrArg₂ Ideal.div (Finset.sum_congr rfl fun p _ => ?_) (Finset.sum_congr rfl fun p _ => ?_)
  · unfold nodeTerm
    rw [dif_pos ⟨hrow, p.isLt⟩]
    unfold wExt
    rw [Cert.Rbf.entry_w_lt m c ⟨p.val, p.isLt⟩ ⟨cc.val, by omega⟩ cc.isLt]
  · unfold nodeTerm
    rw [dif_pos ⟨hrow, p.isLt⟩]
    unfold wExt
    rw [Cert.Rbf.entry_w_eq m c ⟨p.val, p.isLt⟩ ⟨3, by omega⟩ rfl, mul_one]

/-- What a flushing point writes back is its block of the specification. -/
theorem flushed_eq (t : Fin cfg0.N) (hf : (cfg0.win 6).flush t = true) :
    (dats m 0 c).flushed 6 t = ((cfg0.win 6).blk t).view.read (Elt Ideal) (spec m c) := by
  have h1 : t.val % 4 = 3 := (flush0_6 t).mp hf
  have hN := Cert.Rbf.point_lt t
  show (cfg0.win 6).cut (grid0.coords t) ((dats m 0 c).after 6 t) = _
  rw [after_6]
  funext y
  obtain ⟨r, cc, rfl⟩ : ∃ (r : Fin 2048) (cc : Fin 3), y = ix2 r cc := ⟨y 0, y 1, eq_ix2 y⟩
  refine Eq.trans ?_ (Cert.Rbf.block6_read (F := Ideal) (spec m c) t r cc).symm
  exact out_closed m c t h1 r cc (by omega)

/-- So the result array ends holding the specification. -/
theorem final : (dats m 0 c).arrAt 6 cfg0.N = spec m c :=
  (dats m 0 c).arrAt_eq_of_cover 6 (spec m c) (flushed_eq m c) Cert.Rbf.cover6

/-- The run, read: the result array at the specification, the four argument arrays unchanged. -/
theorem run (ρ : Dev nD → PrngReg) : θ_run defs (onTc (τ := τ) (main (F := Ideal))) ⟨m, fun _ => 0, ρ⟩ fun r => ∀ c : Dev nD,
      r.2.mem ((c.tc : Thread nD τ).loc main_v28) = Cert.Rbf.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 6).trans (final m c),
      ((h c).1 0).trans (((dats m 0 c).arrAt_in 0 rfl _).trans ((A_eq m c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c)⟩) (run_main m ρ)

end Cert.KernelIdeal.Region

end
-- ==== Proof.RefIsG.lean ====
/-
  The reference program computes the weighted mean G of the specification.

  For a node p whose bandwidth σ²(p) is a nonzero real, every quantity in the exponent is a real number, and the
  reference's exponent  −(|x|² + |p|² − 2 x·p) / (2 σ²)  equals the specification's
  x0 (2 p0 s) + x1 (2 p1 s) − |p|² s − |x|² s  with  s = 1 / (2 σ²)  by a ring identity. The sums over p are the same
  sums up to the reference's initial value 0.
-/
import proofs.«121839_j68848325754931_2_alg».proof.Proof.Gen.ReferenceIdeal.Read
import proofs.«121839_j68848325754931_2_alg».proof.Proof.Spec

noncomputable section

namespace Cert.Rbf

open Idealize.ShloMosaic Idealize.ShloMosaic.ValueIdx

/-- The word 0x40000000 is the real 2. -/
theorem two_eq : two = ((2 : ℝ) : EReal) := by
  simp [two, Ideal.ofBits, Ideal.ieee, -EReal.coe_mul]; norm_num

/-- The word 0x3F800000 is the real 1. -/
theorem one_eq : one = ((1 : ℝ) : EReal) := by
  simp [one, Ideal.ofBits, Ideal.ieee, -EReal.coe_mul]; norm_num

/-- The exponent identity for one point and one node, all coordinates real and the bandwidth a nonzero real. -/
theorem exponent_eq (x0 x1 p0 p1 r : ℝ) (hr : r ≠ 0) :
    Ideal.div (-(((0 : EReal) + ((x0 : EReal) * x0 + (x1 : EReal) * x1)) + ((0 : EReal) + ((p0 : EReal) * p0 + (p1 : EReal) * p1))
        - ((two * (x0 : EReal)) * p0 + (two * (x1 : EReal)) * p1))) (two * (r : EReal))
      = (x0 : EReal) * (two * p0 * Ideal.div one (two * (r : EReal))) + (x1 : EReal) * (two * p1 * Ideal.div one (two * (r : EReal)))
          + -((p0 : EReal) * p0 + (p1 : EReal) * p1) * Ideal.div one (two * (r : EReal))
          - ((x0 : EReal) * x0 + (x1 : EReal) * x1) * Ideal.div one (two * (r : EReal)) := by
  have h2r : (2 * r : ℝ) ≠ 0 := mul_ne_zero two_ne_zero hr
  rw [two_eq, one_eq, ← EReal.coe_mul 2 r, Ideal.div_coe h2r, Ideal.div_coe h2r]
  rw [← EReal.coe_zero]
  simp only [← EReal.coe_mul, ← EReal.coe_add, ← EReal.coe_sub, ← EReal.coe_neg]
  congr 1
  field_simp
  ring

open Cert.ReferenceIdeal Cert.ReferenceIdeal.Read

variable (X : (⟨S65536x2, .i32⟩ : BufTy).Contents (Elt Ideal)) (Pl : (⟨S2048x2, .i32⟩ : BufTy).Contents (Elt Ideal))
  (W : (⟨S3x2048, .f32⟩ : BufTy).Contents (Elt Ideal)) (σ : (⟨S2048, .f32⟩ : BufTy).Contents (Elt Ideal))

/-- |x|² of point n, with the reference's initial value. -/
theorem v3_at (n : Fin 65536) :
    val_main_v3 (F := Ideal) X (ix1 n) = (0 : EReal) + (coord X n 0 * coord X n 0 + coord X n 1 * coord X n 1) := by
  have e : ∀ k : Fin 2, idx_main_v3 (ix1 n) k = ix2 n k := fun k =>
    funext fun a => Fin.ext (by match a with | ⟨0, _⟩ => rfl | ⟨1, _⟩ => rfl)
  rw [val_main_v3_apply, Fin.sum_univ_two, e, e, val_main_cst_apply, Ideal.ofBits_def, Ideal.ofBits_zero_f32]
  rfl

/-- |p|² of node p, with the reference's initial value. -/
theorem v6_at (p : Fin 2048) :
    val_main_v6 (F := Ideal) Pl (ix1 p) = (0 : EReal) + (coord Pl p 0 * coord Pl p 0 + coord Pl p 1 * coord Pl p 1) := by
  have e : ∀ k : Fin 2, idx_main_v6 (ix1 p) k = ix2 p k := fun k =>
    funext fun a => Fin.ext (by match a with | ⟨0, _⟩ => rfl | ⟨1, _⟩ => rfl)
  rw [val_main_v6_apply, Fin.sum_univ_two, e, e, val_main_cst_0_apply, Ideal.ofBits_def, Ideal.ofBits_zero_f32]
  rfl

/-- The broadcast of |x|² over the nodes. -/
theorem v8_at (n : Fin 65536) (p : Fin 2048) : val_main_v8 (F := Ideal) X (ix2 n p) = val_main_v3 (F := Ideal) X (ix1 n) := by
  rw [val_main_v8_apply, val_main_v4_apply]
  exact congrArg _ (funext fun a => Fin.ext (by match a with | ⟨0, _⟩ => rfl))

/-- The broadcast of |p|² over the points. -/
theorem v9_at (n : Fin 65536) (p : Fin 2048) : val_main_v9 (F := Ideal) Pl (ix2 n p) = val_main_v6 (F := Ideal) Pl (ix1 p) := by
  rw [val_main_v9_apply, val_main_v7_apply]
  exact congrArg _ (funext fun a => Fin.ext (by match a with | ⟨0, _⟩ => rfl))

/-- The cross term 2 x · p. -/
theorem v14_at (n : Fin 65536) (p : Fin 2048) :
    val_main_v14 (F := Ideal) X Pl (ix2 n p)
      = (two * coord X n 0) * coord Pl p 0 + (two * coord X n 1) * coord Pl p 1 := by
  have el : ∀ k : Fin 2, lidx_main_v14 (ix2 n p) k = ix2 n k := fun k =>
    funext fun a => Fin.ext (by match a with | ⟨0, _⟩ => rfl | ⟨1, _⟩ => rfl)
  have er : ∀ k : Fin 2, idx_main_v13 (ridx_main_v14 (ix2 n p) k) = ix2 p k := fun k =>
    funext fun a => Fin.ext (by match a with | ⟨0, _⟩ => rfl | ⟨1, _⟩ => rfl)
  rw [val_main_v14_apply, Fin.sum_univ_two, el, el, val_main_v13_apply, val_main_v13_apply, er, er]
  rfl

/-- The divisor 2 σ². -/
theorem v20_at (n : Fin 65536) (p : Fin 2048) : val_main_v20 (F := Ideal) σ (ix2 n p) = two * σ (ix1 p) := by
  have e : idx_main_v19 (idx_main_v20 (ix2 n p)) = ix1 p :=
    funext fun a => Fin.ext (by match a with | ⟨0, _⟩ => rfl)
  rw [val_main_v20_apply, val_main_v19_apply, e]
  rfl

/-- The reference's Gaussian weight is the specification's, at a node whose bandwidth is a nonzero real. -/
theorem v22_at (n : Fin 65536) (p : Fin 2048) (hσ : ∃ r : ℝ, r ≠ 0 ∧ σ (ix1 p) = (r : EReal)) :
    val_main_v22 (F := Ideal) X Pl σ (ix2 n p) = rbf X Pl σ n p := by
  obtain ⟨r, hr, hp⟩ := hσ
  rw [val_main_v22_apply, val_main_v21_apply, val_main_v16_apply, val_main_v15_apply, val_main_v10_apply,
    v8_at, v9_at, v3_at, v6_at, v14_at, v20_at, hp]
  simp only [Ideal.hostUnary_exp_def, Ideal.hostDivf_def, Ideal.hostNegf_def, Ideal.negf_def, Ideal.subf_def, Ideal.addf_def]
  unfold rbf coefA coefB coefC invTwoSigma
  rw [hp]
  exact congrArg Ideal.exp (exponent_eq _ _ _ _ r hr)

/-- The reference's denominator: the sum of the weights, after the initial value 0. -/
theorem v26_at (n : Fin 65536) (c : Fin 3) (hσ : ∀ p : Fin 2048, ∃ r : ℝ, r ≠ 0 ∧ σ (ix1 p) = (r : EReal)) :
    val_main_v26 (F := Ideal) X Pl σ (ix2 n c) = den X Pl σ n := by
  have e : idx_main_v25 (idx_main_v26 (ix2 n c)) = ix1 n :=
    funext fun a => Fin.ext (by match a with | ⟨0, _⟩ => rfl)
  have ek : ∀ k : Fin 2048, idx_main_v23 (ix1 n) k = ix2 n k := fun k =>
    funext fun a => Fin.ext (by match a with | ⟨0, _⟩ => rfl | ⟨1, _⟩ => rfl)
  rw [val_main_v26_apply, val_main_v25_apply, e, val_main_v23_apply, val_main_cst_3_apply, Ideal.ofBits_def,
    Ideal.ofBits_zero_f32, zero_add]
  exact Finset.sum_congr rfl fun k _ => by rw [ek, v22_at X Pl σ n k (hσ k)]

/-- The reference's numerator: the weights against channel c of W. -/
theorem v24_at (n : Fin 65536) (c : Fin 3) (hσ : ∀ p : Fin 2048, ∃ r : ℝ, r ≠ 0 ∧ σ (ix1 p) = (r : EReal)) :
    val_main_v24 (F := Ideal) X Pl W σ (ix2 n c) = num X Pl W σ n c := by
  have el : ∀ k : Fin 2048, lidx_main_v24 (ix2 n c) k = ix2 n k := fun k =>
    funext fun a => Fin.ext (by match a with | ⟨0, _⟩ => rfl | ⟨1, _⟩ => rfl)
  have er : ∀ k : Fin 2048, ridx_main_v24 (ix2 n c) k = ix2 c k := fun k =>
    funext fun a => Fin.ext (by match a with | ⟨0, _⟩ => rfl | ⟨1, _⟩ => rfl)
  rw [val_main_v24_apply]
  exact Finset.sum_congr rfl fun k _ => by rw [el, er, v22_at X Pl σ n k (hσ k)]

/-- THE REFERENCE IS G, when every bandwidth is a nonzero real. -/
theorem ref_eq_G (hσ : ∀ p : Fin 2048, ∃ r : ℝ, r ≠ 0 ∧ σ (ix1 p) = (r : EReal)) :
    val_main_v27 (F := Ideal) X Pl W σ = G X Pl W σ := by
  funext i
  obtain ⟨n, c, rfl⟩ : ∃ (n : Fin 65536) (c : Fin 3), i = ix2 n c := ⟨i 0, i 1, eq_ix2 i⟩
  rw [val_main_v27_apply, v24_at X Pl W σ n c hσ, v26_at X Pl σ n c hσ]
  rfl

end Cert.Rbf

end
-- ==== Proof.PreFacts.lean ====
/-
  What the precondition says of the bandwidths: every σ²(p) is a nonzero real.

  The precondition is the conjunction of three statements over whole arrays, each a reduction by "and" from 1:
  |W| < +∞ everywhere, |σ²| < +∞ everywhere, σ² ≠ 0 everywhere. On the extended reals |x| = max x (−x) < ⊤ excludes
  both infinities, so x is a real; with x ≠ 0 it is a nonzero real.
-/
import proofs.«121839_j68848325754931_2_alg».proof.Pre_finite_inputs
import proofs.«121839_j68848325754931_2_alg».proof.Proof.Gen.Pre_finite_inputs
import Idealize.ShloMosaic.Lib.ReduceAll
import Idealize.ShloMosaic.Lib.ValueIdx
import Idealize.ShloMosaic.PureOps.Ideal.Laws

noncomputable section

namespace Cert.Rbf

open Idealize.ShloMosaic Idealize.ShloMosaic.ValueIdx Cert.Pre_finite_inputs

/-- The scalar shape has one index. -/
instance subsingleton_scalar_idx : Subsingleton S_.Idx := ⟨fun a b => funext fun d => d.elim0⟩

/-- A one-bit word made from a Boolean is 1 exactly when the Boolean is true. -/
theorem ofBool_one (b : Bool) : BitVec.ofBool b = 1#1 ↔ b = true := by cases b <;> decide

/-- An extended real with |x| < +∞ and x ≠ 0, both as the comparisons' bits, is a nonzero real. -/
theorem real_ne_zero_of_bits (x : EReal)
    (hfin : FloatOps.cmpf (F := Ideal) (φ := .f32) .olt (FloatOps.hostAbsf (F := Ideal) (φ := .f32) x)
      (FloatOps.ofBits (F := Ideal) .f32 0x7F800000#32) = 1#1)
    (hne : FloatOps.cmpf (F := Ideal) (φ := .f32) .une x (FloatOps.ofBits (F := Ideal) .f32 0x00000000#32) = 1#1) :
    ∃ r : ℝ, r ≠ 0 ∧ x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at hfin
  rw [Ideal.cmpf_def, Ideal.ofBits_def, Ideal.ofBits_zero_f32] at hne
  simp only [Ideal.cmp, ofBool_one, decide_eq_true_eq] at hfin hne
  induction x using EReal.rec with
  | bot => simp at hfin
  | top => simp at hfin
  | coe r => exact ⟨r, fun h0 => hne (by rw [h0]; rfl), rfl⟩

/-- THE PRECONDITION DECODED for the bandwidths. -/
theorem sigma_real_ne_zero [Facts] (X : IVec S65536x2 32) (Pl : IVec S2048x2 32) (W : FVec Ideal S3x2048 .f32)
    (σ : FVec Ideal S2048 .f32) (h : fn (F := Ideal) X Pl W σ = fun _ => 1#1) :
    ∀ p : Fin 2048, ∃ r : ℝ, r ≠ 0 ∧ σ (ix1 p) = (r : EReal) := by
  intro p
  have e := congrFun h ix0
  dsimp only [fn] at e
  simp only [andi, IntOp.andi_eq_one] at e
  obtain ⟨⟨-, hfin⟩, hne⟩ := e
  have a := Host.reduce_andi_all _ _ _ _ _ hfin (ix1 p)
  have b := Host.reduce_andi_all _ _ _ _ _ hne (ix1 p)
  exact real_ne_zero_of_bits (σ (ix1 p)) a b

end Cert.Rbf

end
-- ==== Proof.lean ====
/-
  The kernel and the reference compute the same weighted mean over the extended reals.

  For a query point n with integer coordinates (x0, x1), pattern nodes p with integer coordinates (p0, p1), bandwidths
  σ²(p) and weights W(c, p), both programs return, for each of the three channels c,

      G(n, c) = (Σ_p rbf(n, p) · W(c, p)) / (Σ_p rbf(n, p)),     rbf(n, p) = exp(−((x0 − p0)² + (x1 − p1)²) / (2 σ²(p))).

  The reference forms the squared distance as |x|² + |p|² − 2 x·p, divides by 2 σ², exponentiates, and takes the two
  sums over all 2048 nodes at once. The kernel first forms, per node, s = 1 / (2 σ²) and the coefficients 2 p0 s, 2 p1 s,
  −|p|² s, so that the exponent is x0 (2 p0 s) + x1 (2 p1 s) − |p|² s − |x|² s; it walks the nodes 512 at a time, adding
  into an accumulator the products of the weights rbf(n, p) with W padded by a column of ones — the fourth column
  accumulates the denominator —, and divides the first three columns by the fourth after the last chunk.

  The precondition makes every σ²(p) a nonzero real. Then s is the real 1 / (2 σ²), every term of either exponent is a
  real, and the two exponents are equal by a ring identity; the sums of the chunks are the sum over all nodes, the
  padding columns contribute nothing to the three channels, and the ones give the denominator. Both results are G.
-/
import proofs.«121839_j68848325754931_2_alg».proof.Defs
import proofs.«121839_j68848325754931_2_alg».proof.Proof.Gen.Kernel
import proofs.«121839_j68848325754931_2_alg».proof.Proof.Gen.Kernel.Skeleton
import proofs.«121839_j68848325754931_2_alg».proof.Proof.Gen.Kernel.Launch
import proofs.«121839_j68848325754931_2_alg».proof.Proof.Gen.Kernel.Points
import proofs.«121839_j68848325754931_2_alg».proof.Proof.Gen.KernelIdeal
import proofs.«121839_j68848325754931_2_alg».proof.Proof.Gen.KernelIdeal.Skeleton
import proofs.«121839_j68848325754931_2_alg».proof.Proof.Gen.KernelIdeal.Launch
import proofs.«121839_j68848325754931_2_alg».proof.Proof.Gen.KernelIdeal.Points
import proofs.«121839_j68848325754931_2_alg».proof.Proof.Gen.ReferenceIdeal
import proofs.«121839_j68848325754931_2_alg».proof.Proof.Gen.ReferenceIdeal.Run
import proofs.«121839_j68848325754931_2_alg».proof.Proof.Gen.ReferenceIdeal.Read
import proofs.«121839_j68848325754931_2_alg».proof.Proof.Gen.Pre_finite_inputs
import proofs.«121839_j68848325754931_2_alg».proof.Proof.RegionRunB
import proofs.«121839_j68848325754931_2_alg».proof.Proof.KernelValue
import proofs.«121839_j68848325754931_2_alg».proof.Proof.RefIsG
import proofs.«121839_j68848325754931_2_alg».proof.Proof.PreFacts
import Idealize.ShloMosaic.Adequacy
import Idealize.ShloMosaic.Init

noncomputable section

namespace Cert.Proof

open Idealize.ShloMosaic Idealize.ShloMosaic.TcCoe Idealize.SL.Sem

/-- The kernel as printed runs and leaves its four argument arrays as launched. -/
theorem frame_k : Cert.frame_Kernel := fun m ρ _ => Cert.Kernel.Region.frame m ρ

/-- So does the kernel read over the extended reals. -/
theorem frame_ki : Cert.frame_KernelIdeal := fun m ρ _ => Cert.KernelIdeal.Region.frame m ρ

/-- So does the reference: its run ends with the arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Over the extended reals, from memories that agree on the four arguments and whose bandwidths are nonzero reals, the
    kernel's result array and the reference's both end at G of the arguments. -/
theorem algebraic : Cert.algebraic_KernelIdeal_ReferenceIdeal := by
  intro m ρ m' ρ' hpre hagree
  refine ⟨fun c => Cert.Rbf.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Region.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, (hagree c).1, (hagree c).2.1, (hagree c).2.2.1, (hagree c).2.2.2]
  exact Cert.Rbf.ref_eq_G _ _ _ _ (Cert.Rbf.sigma_real_ne_zero _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
